-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S256x1024 : Shape := ⟨2, ![256, 1024]⟩
abbrev S1 : Shape := ⟨1, ![1]⟩
abbrev S256 : Shape := ⟨1, ![256]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1 : S_.BroadcastsInDim S1 (![] : Fin 0 → Fin S1.rank)
  reducesTo_S1_S_d0 : S1.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32768x1024 .f32) (main_arg1 : FVec F S256x1024 .f32) (main_arg2 : FVec F S256x1024 .f32) (main_arg3 : FVec F S1 .f32) (main_arg4 : FVec F S256 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S32768x1024 : Shape := ⟨2, ![32768, 1024]⟩
abbrev S256x1024 : Shape := ⟨2, ![256, 1024]⟩
abbrev S1 : Shape := ⟨1, ![1]⟩
abbrev S256 : Shape := ⟨1, ![256]⟩
abbrev S_ : Shape := ⟨0, ![]⟩
abbrev S1x1 : Shape := ⟨2, ![1, 1]⟩
abbrev S1x256 : Shape := ⟨2, ![1, 256]⟩
abbrev S1024x256 : Shape := ⟨2, ![1024, 256]⟩
abbrev S32768x256 : Shape := ⟨2, ![32768, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S32768x1x1024 : Shape := ⟨3, ![32768, 1, 1024]⟩
abbrev S32768x1x256 : Shape := ⟨3, ![32768, 1, 256]⟩

abbrev nBuf : Space → Nat
  | .hbm => 46
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S256x1024, .f32⟩
  | .hbm, ⟨2, _⟩ => ⟨S256x1024, .f32⟩
  | .hbm, ⟨3, _⟩ => ⟨S1, .f32⟩
  | .hbm, ⟨4, _⟩ => ⟨S256, .f32⟩
  | .hbm, ⟨5, _⟩ => ⟨S1, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S1x1, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S1x256, .f32⟩
  | .hbm, ⟨29, _⟩ => ⟨S256x1024, .f32⟩
  | .hbm, ⟨30, _⟩ => ⟨S_, .f32⟩
  | .hbm, ⟨31, _⟩ => ⟨S256, .f32⟩
  | .hbm, ⟨32, _⟩ => ⟨S1x256, .f32⟩
  | .hbm, ⟨33, _⟩ => ⟨S256x1024, .f32⟩
  | .hbm, ⟨34, _⟩ => ⟨S_, .f32⟩
  | .hbm, ⟨35, _⟩ => ⟨S256, .f32⟩
  | .hbm, ⟨36, _⟩ => ⟨S1x256, .f32⟩
  | .hbm, ⟨37, _⟩ => ⟨S1024x256, .f32⟩
  | .hbm, ⟨38, _⟩ => ⟨S1024x256, .bf16⟩
  | .hbm, ⟨39, _⟩ => ⟨S1024x256, .f32⟩
  | .hbm, ⟨40, _⟩ => ⟨S1024x256, .bf16⟩
  | .hbm, ⟨41, _⟩ => ⟨S256x1024, .bf16⟩
  | .hbm, ⟨42, _⟩ => ⟨S32768x1024, .f32⟩
  | .hbm, ⟨43, _⟩ => ⟨S32768x256, .f32⟩
  | .hbm, ⟨44, _⟩ => ⟨S32768x1x1024, .f32⟩
  | .hbm, ⟨45, _⟩ => ⟨S32768x1x256, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S1024x256, .bf16⟩
  | .local _ .vmem, ⟨4, _⟩ => ⟨S256x1024, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S512x256, .f32⟩
  | .local _ .vmem, ⟨12, _⟩ => ⟨S512x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1 : S_.BroadcastsInDim S1 (![] : Fin 0 → Fin S1.rank)
  shapeCasts_S1_S1x1 : S1.ShapeCasts S1x1
  bcast_S_S256 : S_.BroadcastsInDim S256 (![] : Fin 0 → Fin S256.rank)
  bcast_S256_S1x256_1 : S256.BroadcastsInDim S1x256 (![1] : Fin 1 → Fin S1x256.rank)
  reducesTo_S256x1024_S256_d1 : S256x1024.ReducesTo [1] S256
  h_S_ : 0 < S_.numel
  transposes_S256x1024_S1024x256_1_0 : S256x1024.Transposes [1, 0] S1024x256
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S512x1_S512x256 : S512x1.Broadcasts S512x256
  broadcasts_S1x256_S512x256 : S1x256.Broadcasts S512x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x256 : S1x1.Broadcasts S512x256
  reduces_S512x256_S512 : S512x256.Reduces [1] S512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x256_S512x256_0_0 : ∀ a, (![0, 0] : Fin 2 → Nat) a + S512x256.size a ≤ S512x256.size a
  h_S512x256 : 0 < S512x256.numel
  bcast_S32768x1024_S32768x1x1024_0_2 : S32768x1024.BroadcastsInDim S32768x1x1024 (![0, 2] : Fin 2 → Fin S32768x1x1024.rank)
  bcast_S32768x256_S32768x1x256_0_2 : S32768x256.BroadcastsInDim S32768x1x256 (![0, 2] : Fin 2 → Fin S32768x1x256.rank)
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S32768x1024.size a
  hwx0_8 : ∀ i : grid0.Coords, EltTy.bits .f32 = 32 ∨ (Rect.block (s := S32768x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S32768x256.size a
  hwx0_9 : ∀ i : grid0.Coords, EltTy.bits .f32 = 32 ∨ (Rect.block (s := S32768x256) S512x256.size (cc0_transform_9 i) (hinb0_9 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29_0) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29_1) S512x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S256x1024 : Shape := ⟨2, ![256, 1024]⟩
abbrev S1 : Shape := ⟨1, ![1]⟩
abbrev S256 : Shape := ⟨1, ![256]⟩
abbrev S_ : Shape := ⟨0, ![]⟩
abbrev S1x256 : Shape := ⟨2, ![1, 256]⟩
abbrev S32768 : Shape := ⟨1, ![32768]⟩
abbrev S32768x1 : Shape := ⟨2, ![32768, 1]⟩
abbrev S1024x256 : Shape := ⟨2, ![1024, 256]⟩
abbrev S32768x256 : Shape := ⟨2, ![32768, 256]⟩
abbrev S1x1 : Shape := ⟨2, ![1, 1]⟩
abbrev S32768x1x1024 : Shape := ⟨3, ![32768, 1, 1024]⟩
abbrev S32768x1x256 : Shape := ⟨3, ![32768, 1, 256]⟩

abbrev nBuf : Space → Nat
  | .hbm => 102
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S256x1024, .f32⟩
  | .hbm, ⟨2, _⟩ => ⟨S256x1024, .f32⟩
  | .hbm, ⟨3, _⟩ => ⟨S1, .f32⟩
  | .hbm, ⟨4, _⟩ => ⟨S256, .f32⟩
  | .hbm, ⟨5, _⟩ => ⟨S1, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S1x256, .f32⟩
  | .hbm, ⟨36, _⟩ => ⟨S1024x256, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S_, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S_, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S256x1024, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S1024x256, .f32⟩
  | .hbm, ⟨58, _⟩ => ⟨S32768x256, .f32⟩
  | .hbm, ⟨59, _⟩ => ⟨S32768x256, .f32⟩
  | .hbm, ⟨60, _⟩ => ⟨S32768x256, .f32⟩
  | .hbm, ⟨61, _⟩ => ⟨S32768x256, .f32⟩
  | .hbm, ⟨62, _⟩ => ⟨S_, .f32⟩
  | .hbm, ⟨63, _⟩ => ⟨S32768x256, .f32⟩
  | .hbm, ⟨64, _⟩ => ⟨S32768x256, .f32⟩
  | .hbm, ⟨65, _⟩ => ⟨S32768x256, .f32⟩
  | .hbm, ⟨66, _⟩ => ⟨S_, .f32⟩
  | .hbm, ⟨67, _⟩ => ⟨S32768x256, .f32⟩
  | .hbm, ⟨68, _⟩ => ⟨S32768x256, .f32⟩
  | .hbm, ⟨69, _⟩ => ⟨S32768x256, .f32⟩
  | .hbm, ⟨70, _⟩ => ⟨S32768x256, .f32⟩
  | .hbm, ⟨71, _⟩ => ⟨S32768x256, .f32⟩
  | .hbm, ⟨72, _⟩ => ⟨S1x1, .f32⟩
  | .hbm, ⟨73, _⟩ => ⟨S32768x256, .f32⟩
  | .hbm, ⟨74, _⟩ => ⟨S32768x256, .f32⟩
  | .hbm, ⟨75, _⟩ => ⟨S_, .f32⟩
  | .hbm, ⟨76, _⟩ => ⟨S32768, .f32⟩
  | .hbm, ⟨77, _⟩ => ⟨S_, .f32⟩
  | .hbm, ⟨78, _⟩ => ⟨S32768, .f32⟩
  | .hbm, ⟨79, _⟩ => ⟨S32768, .f32⟩
  | .hbm, ⟨80, _⟩ => ⟨S32768x1, .f32⟩
  | .hbm, ⟨81, _⟩ => ⟨S32768x256, .f32⟩
  | .hbm, ⟨82, _⟩ => ⟨S32768x256, .f32⟩
  | .hbm, ⟨83, _⟩ => ⟨S32768x256, .f32⟩
  | .hbm, ⟨84, _⟩ => ⟨S_, .f32⟩
  | .hbm, ⟨85, _⟩ => ⟨S32768, .f32⟩
  | .hbm, ⟨86, _⟩ => ⟨S32768x1, .f32⟩
  | .hbm, ⟨87, _⟩ => ⟨S32768x256, .f32⟩
  | .hbm, ⟨88, _⟩ => ⟨S32768x256, .f32⟩
  | .hbm, ⟨89, _⟩ => ⟨S32768x256, .f32⟩
  | .hbm, ⟨90, _⟩ => ⟨S32768x256, .f32⟩
  | .hbm, ⟨91, _⟩ => ⟨S_, .f32⟩
  | .hbm, ⟨92, _⟩ => ⟨S32768, .f32⟩
  | .hbm, ⟨93, _⟩ => ⟨S32768x1, .f32⟩
  | .hbm, ⟨94, _⟩ => ⟨S_, .f32⟩
  | .hbm, ⟨95, _⟩ => ⟨S32768x1, .f32⟩
  | .hbm, ⟨96, _⟩ => ⟨S32768x1, .f32⟩
  | .hbm, ⟨97, _⟩ => ⟨S32768x256, .f32⟩
  | .hbm, ⟨98, _⟩ => ⟨S32768x256, .f32⟩
  | .hbm, ⟨99, _⟩ => ⟨S32768x1024, .f32⟩
  | .hbm, ⟨100, _⟩ => ⟨S32768x1x1024, .f32⟩
  | .hbm, ⟨101, _⟩ => ⟨S32768x1x256, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_15 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_cst_17 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S256 : S_.BroadcastsInDim S256 (![] : Fin 0 → Fin S256.rank)
  bcast_S256_S1x256_1 : S256.BroadcastsInDim S1x256 (![1] : Fin 1 → Fin S1x256.rank)
  reducesTo_S32768x1024_S32768_d1 : S32768x1024.ReducesTo [1] S32768
  h_S_ : 0 < S_.numel
  bcast_S32768_S32768x1_0 : S32768.BroadcastsInDim S32768x1 (![0] : Fin 1 → Fin S32768x1.rank)
  reducesTo_S256x1024_S256_d1 : S256x1024.ReducesTo [1] S256
  transposes_S256x1024_S1024x256_1_0 : S256x1024.Transposes [1, 0] S1024x256
  bcast_S32768x1_S32768x256_0_1 : S32768x1.BroadcastsInDim S32768x256 (![0, 1] : Fin 2 → Fin S32768x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S1_S1x1_1 : S1.BroadcastsInDim S1x1 (![1] : Fin 1 → Fin S1x1.rank)
  bcast_S1x1_S32768x256_0_1 : S1x1.BroadcastsInDim S32768x256 (![0, 1] : Fin 2 → Fin S32768x256.rank)
  reducesTo_S32768x256_S32768_d1 : S32768x256.ReducesTo [1] S32768
  bcast_S_S32768 : S_.BroadcastsInDim S32768 (![] : Fin 0 → Fin S32768.rank)
  bcast_S_S32768x1 : S_.BroadcastsInDim S32768x1 (![] : Fin 0 → Fin S32768x1.rank)
  bcast_S32768x1024_S32768x1x1024_0_2 : S32768x1024.BroadcastsInDim S32768x1x1024 (![0, 2] : Fin 2 → Fin S32768x1x1024.rank)
  bcast_S32768x256_S32768x1x256_0_2 : S32768x256.BroadcastsInDim S32768x1x256 (![0, 2] : Fin 2 → Fin S32768x1x256.rank)
  dot_S32768x1024_S1024x256_S32768x256_1_0_0_1_n_n_wf : DotDims.WF S32768x1024 S1024x256 S32768x256 [1] [0] [0] [1] [] []
  dot_S32768x256_S256x1024_S32768x1024_1_0_0_1_n_n_wf : DotDims.WF S32768x256 S256x1024 S32768x1024 [1] [0] [0] [1] [] []

variable [Facts₀]

def dot_S32768x1024_S1024x256_S32768x256_1_0_0_1_n_n : DotDims S32768x1024 S1024x256 S32768x256 where
  lhsContracting := [1]
  rhsContracting := [0]
  lhsNonContracting := [0]
  rhsNonContracting := [1]
  lhsBatch := []
  rhsBatch := []
  wf := dot_S32768x1024_S1024x256_S32768x256_1_0_0_1_n_n_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf

class Facts : Prop extends Facts₀ where

variable [Facts]
-- ==== Proof.Spec.lean ====
/-
  The two results of the soft self-organising-map layer, each as ONE function of the five argument arrays on the
  extended reals: the normalised gated softmax weights `w[b, n]` and the prototype blend `∑ n, w[b, n] · P[n, d]`.

  For a row `x` of the input (1024 entries), prototype rows `P n` and grid rows `G n` (256 of each):
    distance      d(x, y)  = sqrt (max (‖x‖² + ‖y‖² − 2 · ⟨x, y⟩) 0)          (`dist` of the three sums)
    logit         l n      = −(d(x, P n) + d(x, G n)) / T                      (`logit`, T the temperature)
    soft maximum  e n      = exp (l n − max over the row of l),  s n = e n / ∑ e
    gate          g n      = s n · σ(gate_logit n)
    weight        w n      = g n / (∑ g + ε)
  with σ t = 1 / (1 + exp (−t)) and T = σ(temp_raw) · c₁ + c₂. The float literals are kept as the extended reals their
  words denote: no law used below needs their values. Sums are `Finset` sums (no order), the row maximum the fold of
  `max` from the word −∞ denotes.

  Two small laws join the two programs' spellings: a negation written as a difference from the zero word
  (`zero_sub_eq_neg`), and a maximum of the fold with its own starting value (`max_negInf_rowMax`).
-/
import Idealize.ShloMosaic.PureOps.Ideal
import Idealize.ShloMosaic.PureOps.Ideal.Laws
import Idealize.ShloMosaic.Lib.ValueIdx

noncomputable section

namespace Cert.SoftSom

open Idealize.ShloMosaic Idealize.ShloMosaic.ValueIdx

/-! ## The literals, as the extended reals their words denote -/

abbrev zero : EReal := Ideal.ofBits .f32 0x00000000#32
abbrev one : EReal := Ideal.ofBits .f32 0x3F800000#32
abbrev two : EReal := Ideal.ofBits .f32 0x40000000#32
abbrev negInf : EReal := Ideal.ofBits .f32 0xFF800000#32
abbrev eps : EReal := Ideal.ofBits .f32 0x322BCC77#32
abbrev c1 : EReal := Ideal.ofBits .f32 0x3F7FBE77#32
abbrev c2 : EReal := Ideal.ofBits .f32 0x3A83126F#32

/-! ## One row -/

/-- The squared norm of a row. -/
def ss (v : Fin 1024 → EReal) : EReal := ∑ k : Fin 1024, v k * v k
/-- The inner product of two rows. -/
def dot (u v : Fin 1024 → EReal) : EReal := ∑ k : Fin 1024, u k * v k
/-- The distance from the two squared norms and the inner product, clamped at zero before the root. -/
def dist (a2 b2 ab : EReal) : EReal := Ideal.sqrt (max (a2 + b2 - two * ab) zero)
/-- The logit of one prototype: minus the two distances added, over the temperature. -/
def logit (a2 p2 g2 abp abg T : EReal) : EReal := Ideal.div (-(dist a2 p2 abp + dist a2 g2 abg)) T
/-- The maximum of a row of logits: the fold of `max` from −∞'s word. -/
def rowMax (v : Fin 256 → EReal) : EReal := (Finset.univ : Finset (Fin 256)).fold max negInf v
/-- The shifted exponential of a logit. -/
def expo (lg : Fin 256 → EReal) (j : Fin 256) : EReal := Ideal.exp (lg j - rowMax lg)
/-- The soft maximum times the gate. -/
def gated (lg gate : Fin 256 → EReal) (j : Fin 256) : EReal := Ideal.div (expo lg j) (∑ i : Fin 256, expo lg i) * gate j
/-- The gated soft maximum renormalised: the weight of prototype `n`. -/
def weight (lg gate : Fin 256 → EReal) (n : Fin 256) : EReal := Ideal.div (gated lg gate n) ((∑ i : Fin 256, gated lg gate i) + eps)
/-- The logistic function as both programs spell it: `1 / (1 + exp (−t))`. -/
def sigm (t : EReal) : EReal := Ideal.div one (one + Ideal.exp (-t))
/-- The temperature from its raw parameter. -/
def temp (t : EReal) : EReal := sigm t * c1 + c2

/-- The row of logits of an input row against the prototype and grid tables. -/
def logits (xr : Fin 1024 → EReal) (P G : Fin 256 → Fin 1024 → EReal) (T : EReal) (n : Fin 256) : EReal :=
  logit (ss xr) (ss (P n)) (ss (G n)) (dot xr (P n)) (dot xr (G n)) T

/-! ## The two results as functions of the argument arrays -/

/-- The weights `[32768, 256]`: row `b`'s weights of the 256 prototypes. -/
def Weights (x0 : (⟨2, ![32768, 1024]⟩ : Shape).Idx → EReal) (x1 x2 : (⟨2, ![256, 1024]⟩ : Shape).Idx → EReal)
    (x3 : (⟨1, ![1]⟩ : Shape).Idx → EReal) (x4 : (⟨1, ![256]⟩ : Shape).Idx → EReal) : (⟨2, ![32768, 256]⟩ : Shape).Idx → EReal :=
  fun i => weight (logits (fun k => x0 (ix2 (i 0) k)) (fun n k => x1 (ix2 n k)) (fun n k => x2 (ix2 n k)) (temp (x3 (ix1 0))))
    (fun j => sigm (x4 (ix1 j))) (i 1)

/-- The blend `[32768, 1024]`: row `b`'s weights applied to the prototype table's column `d`. -/
def Blended (x0 : (⟨2, ![32768, 1024]⟩ : Shape).Idx → EReal) (x1 x2 : (⟨2, ![256, 1024]⟩ : Shape).Idx → EReal)
    (x3 : (⟨1, ![1]⟩ : Shape).Idx → EReal) (x4 : (⟨1, ![256]⟩ : Shape).Idx → EReal) : (⟨2, ![32768, 1024]⟩ : Shape).Idx → EReal :=
  fun i => ∑ n : Fin 256, Weights x0 x1 x2 x3 x4 (ix2 (i 0) n) * x1 (ix2 n (i 1))

theorem Weights_apply (x0 : (⟨2, ![32768, 1024]⟩ : Shape).Idx → EReal) (x1 x2 : (⟨2, ![256, 1024]⟩ : Shape).Idx → EReal)
    (x3 : (⟨1, ![1]⟩ : Shape).Idx → EReal) (x4 : (⟨1, ![256]⟩ : Shape).Idx → EReal) (b : Fin 32768) (n : Fin 256) :
    Weights x0 x1 x2 x3 x4 (ix2 b n)
      = weight (logits (fun k => x0 (ix2 b k)) (fun n k => x1 (ix2 n k)) (fun n k => x2 (ix2 n k)) (temp (x3 (ix1 0))))
          (fun j => sigm (x4 (ix1 j))) n := rfl

theorem Blended_apply (x0 : (⟨2, ![32768, 1024]⟩ : Shape).Idx → EReal) (x1 x2 : (⟨2, ![256, 1024]⟩ : Shape).Idx → EReal)
    (x3 : (⟨1, ![1]⟩ : Shape).Idx → EReal) (x4 : (⟨1, ![256]⟩ : Shape).Idx → EReal) (b : Fin 32768) (d : Fin 1024) :
    Blended x0 x1 x2 x3 x4 (ix2 b d) = ∑ n : Fin 256, Weights x0 x1 x2 x3 x4 (ix2 b n) * x1 (ix2 n d) := rfl

/-! ## The two laws -/

/-- A difference from the zero word is the negation, at every extended real. -/
theorem zero_sub_eq_neg (x : EReal) : zero - x = -x := by
  show Ideal.ofBits .f32 0x00000000#32 - x = -x
  rw [Ideal.ofBits_zero_f32, sub_eq_add_neg, zero_add]

/-- The fold of `max` from a starting value is at least that value, so taking the maximum with it again changes nothing. -/
theorem max_negInf_rowMax (v : Fin 256 → EReal) : max negInf (rowMax v) = rowMax v :=
  max_eq_right (Finset.le_fold_max (negInf) |>.mpr (Or.inl le_rfl))

/-- A sum from the zero word is the sum. -/
theorem zero_add_eq (x : EReal) : zero + x = x := by
  show Ideal.ofBits .f32 0x00000000#32 + x = x
  rw [Ideal.ofBits_zero_f32, zero_add]

end Cert.SoftSom

end
-- ==== Proof.RefSide.lean ====
/-
  The reference program of the soft self-organising-map layer, read one operation at a time, IS the specification's
  composition: its 78 operations compute, at each coordinate, exactly the terms that temp, sigm, ss, dot, dist,
  logits, rowMax, expo, gated and weight name, in the same order, so the two results val_main_v74 (the weights) and
  val_main_v75 (the blend) are the functions Weights and Blended of the five argument arrays.

  Every stage is stated at explicit coordinates b : Fin 32768 (input row), n j : Fin 256 (prototype),
  k d : Fin 1024 (feature), the indices built by ix1 / ix2. Broadcasts and the transpose only move indices: each
  composed index function is identified with a coordinate constructor by computing its coordinates. The sums over an
  axis begin from the zero word (removed by zero_add_eq), the row maximum is a fold of max from the word of −∞, and
  the reference's extra maximum (−∞, ·) of that fold is absorbed by max_negInf_rowMax. Nothing needs finiteness.
-/
import proofs.«151267_j4114578669898_1_alg».proof.Proof.Gen.ReferenceIdeal.Read
import proofs.«151267_j4114578669898_1_alg».proof.Proof.Spec

noncomputable section

namespace Cert.SoftSom.Ref

open Cert.ReferenceIdeal Cert.ReferenceIdeal.Gen Cert.ReferenceIdeal.Read Cert.SoftSom Idealize.ShloMosaic
  Idealize.ShloMosaic.ValueIdx

/-! ## The temperature and the gate -/

/-- The temperature: σ(raw) · c₁ + c₂. -/
theorem v9_eq (x3 : (⟨S1, .f32⟩ : BufTy).Contents (Elt Ideal)) (i : S1.Idx) :
    val_main_v9 (F := Ideal) x3 i = temp (x3 i) := by
  simp only [val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, val_main_cst_2_apply,
    Ideal.ofBits_def, Ideal.addf_def, Ideal.mulf_def, Ideal.hostDivf_def, Ideal.hostNegf_def, Ideal.negf_def,
    Ideal.hostUnary_exp_def]
  rfl

/-- The gate of prototype j: σ(gate_logit j). -/
theorem v15_eq (x4 : (⟨S256, .f32⟩ : BufTy).Contents (Elt Ideal)) (i : S256.Idx) :
    val_main_v15 (F := Ideal) x4 i = sigm (x4 i) := by
  simp only [val_main_v15_apply, val_main_v14_apply, val_main_v13_apply, val_main_v12_apply, val_main_v11_apply,
    val_main_v10_apply, val_main_cst_3_apply, val_main_cst_4_apply,
    Ideal.ofBits_def, Ideal.addf_def, Ideal.hostDivf_def, Ideal.hostNegf_def, Ideal.negf_def, Ideal.hostUnary_exp_def]
  rfl

/-! ## Squared norms and inner products -/

theorem idx18 (b : Fin 32768) (k : Fin 1024) : idx_main_v18 (ix1 b) k = ix2 b k :=
  funext fun a => Fin.ext (by match a with | ⟨0, _⟩ => rfl | ⟨1, _⟩ => rfl)
theorem idx35 (b : Fin 32768) (k : Fin 1024) : idx_main_v35 (ix1 b) k = ix2 b k :=
  funext fun a => Fin.ext (by match a with | ⟨0, _⟩ => rfl | ⟨1, _⟩ => rfl)
theorem idx21 (n : Fin 256) (k : Fin 1024) : idx_main_v21 (ix1 n) k = ix2 n k :=
  funext fun a => Fin.ext (by match a with | ⟨0, _⟩ => rfl | ⟨1, _⟩ => rfl)
theorem idx38 (n : Fin 256) (k : Fin 1024) : idx_main_v38 (ix1 n) k = ix2 n k :=
  funext fun a => Fin.ext (by match a with | ⟨0, _⟩ => rfl | ⟨1, _⟩ => rfl)

/-- The squared norm of input row b (first occurrence). -/
theorem v18_eq (x0 : (⟨S32768x1024, .f32⟩ : BufTy).Contents (Elt Ideal)) (b : Fin 32768) :
    val_main_v18 (F := Ideal) x0 (ix1 b) = ss (fun k => x0 (ix2 b k)) := by
  rw [val_main_v18_apply]
  simp only [idx18, val_main_v17_apply, val_main_cst_5_apply, Ideal.ofBits_def, Ideal.mulf_def]
  exact zero_add_eq _

/-- The squared norm of input row b (second occurrence). -/
theorem v35_eq (x0 : (⟨S32768x1024, .f32⟩ : BufTy).Contents (Elt Ideal)) (b : Fin 32768) :
    val_main_v35 (F := Ideal) x0 (ix1 b) = ss (fun k => x0 (ix2 b k)) := by
  rw [val_main_v35_apply]
  simp only [idx35, val_main_v34_apply, val_main_cst_9_apply, Ideal.ofBits_def, Ideal.mulf_def]
  exact zero_add_eq _

/-- The squared norm of prototype row n. -/
theorem v21_eq (x1 : (⟨S256x1024, .f32⟩ : BufTy).Contents (Elt Ideal)) (n : Fin 256) :
    val_main_v21 (F := Ideal) x1 (ix1 n) = ss (fun k => x1 (ix2 n k)) := by
  rw [val_main_v21_apply]
  simp only [idx21, val_main_v20_apply, val_main_cst_6_apply, Ideal.ofBits_def, Ideal.mulf_def]
  exact zero_add_eq _

/-- The squared norm of grid row n. -/
theorem v38_eq (x2 : (⟨S256x1024, .f32⟩ : BufTy).Contents (Elt Ideal)) (n : Fin 256) :
    val_main_v38 (F := Ideal) x2 (ix1 n) = ss (fun k => x2 (ix2 n k)) := by
  rw [val_main_v38_apply]
  simp only [idx38, val_main_v37_apply, val_main_cst_10_apply, Ideal.ofBits_def, Ideal.mulf_def]
  exact zero_add_eq _

theorem lidx24 (b : Fin 32768) (n : Fin 256) (k : Fin 1024) : lidx_main_v24 (ix2 b n) k = ix2 b k :=
  funext fun a => Fin.ext (by match a with | ⟨0, _⟩ => rfl | ⟨1, _⟩ => rfl)
theorem ridx24 (b : Fin 32768) (n : Fin 256) (k : Fin 1024) : ridx_main_v24 (ix2 b n) k = ix2 k n :=
  funext fun a => Fin.ext (by match a with | ⟨0, _⟩ => rfl | ⟨1, _⟩ => rfl)
theorem idx23 (n : Fin 256) (k : Fin 1024) : idx_main_v23 (ix2 k n) = ix2 n k :=
  funext fun a => Fin.ext (by match a with | ⟨0, _⟩ => rfl | ⟨1, _⟩ => rfl)
theorem lidx41 (b : Fin 32768) (n : Fin 256) (k : Fin 1024) : lidx_main_v41 (ix2 b n) k = ix2 b k :=
  funext fun a => Fin.ext (by match a with | ⟨0, _⟩ => rfl | ⟨1, _⟩ => rfl)
theorem ridx41 (b : Fin 32768) (n : Fin 256) (k : Fin 1024) : ridx_main_v41 (ix2 b n) k = ix2 k n :=
  funext fun a => Fin.ext (by match a with | ⟨0, _⟩ => rfl | ⟨1, _⟩ => rfl)
theorem idx40 (n : Fin 256) (k : Fin 1024) : idx_main_v40 (ix2 k n) = ix2 n k :=
  funext fun a => Fin.ext (by match a with | ⟨0, _⟩ => rfl | ⟨1, _⟩ => rfl)

/-- The inner product of input row b with prototype row n, through the transposed table. -/
theorem v24_eq (x0 : (⟨S32768x1024, .f32⟩ : BufTy).Contents (Elt Ideal))
    (x1 : (⟨S256x1024, .f32⟩ : BufTy).Contents (Elt Ideal)) (b : Fin 32768) (n : Fin 256) :
    val_main_v24 (F := Ideal) x0 x1 (ix2 b n) = dot (fun k => x0 (ix2 b k)) (fun k => x1 (ix2 n k)) := by
  rw [val_main_v24_apply]
  simp only [lidx24, ridx24, val_main_v23_apply, idx23]
  rfl

/-- The inner product of input row b with grid row n, through the transposed table. -/
theorem v41_eq (x0 : (⟨S32768x1024, .f32⟩ : BufTy).Contents (Elt Ideal))
    (x2 : (⟨S256x1024, .f32⟩ : BufTy).Contents (Elt Ideal)) (b : Fin 32768) (n : Fin 256) :
    val_main_v41 (F := Ideal) x0 x2 (ix2 b n) = dot (fun k => x0 (ix2 b k)) (fun k => x2 (ix2 n k)) := by
  rw [val_main_v41_apply]
  simp only [lidx41, ridx41, val_main_v40_apply, idx40]
  rfl

/-! ## Distances and logits -/

theorem idx19_25 (b : Fin 32768) (n : Fin 256) : idx_main_v19 (idx_main_v25 (ix2 b n)) = ix1 b :=
  funext fun a => Fin.ext (by match a with | ⟨0, _⟩ => rfl)
theorem idx22_26 (b : Fin 32768) (n : Fin 256) : idx_main_v22 (idx_main_v26 (ix2 b n)) = ix1 n :=
  funext fun a => Fin.ext (by match a with | ⟨0, _⟩ => rfl)
theorem idx36_42 (b : Fin 32768) (n : Fin 256) : idx_main_v36 (idx_main_v42 (ix2 b n)) = ix1 b :=
  funext fun a => Fin.ext (by match a with | ⟨0, _⟩ => rfl)
theorem idx39_43 (b : Fin 32768) (n : Fin 256) : idx_main_v39 (idx_main_v43 (ix2 b n)) = ix1 n :=
  funext fun a => Fin.ext (by match a with | ⟨0, _⟩ => rfl)

/-- The distance from input row b to prototype row n. -/
theorem v33_eq (x0 : (⟨S32768x1024, .f32⟩ : BufTy).Contents (Elt Ideal))
    (x1 : (⟨S256x1024, .f32⟩ : BufTy).Contents (Elt Ideal)) (b : Fin 32768) (n : Fin 256) :
    val_main_v33 (F := Ideal) x0 x1 (ix2 b n)
      = dist (ss (fun k => x0 (ix2 b k))) (ss (fun k => x1 (ix2 n k)))
          (dot (fun k => x0 (ix2 b k)) (fun k => x1 (ix2 n k))) := by
  simp only [val_main_v33_apply, val_main_v32_apply, val_main_v31_apply, val_main_v30_apply, val_main_v29_apply,
    val_main_v28_apply, val_main_v27_apply, val_main_v26_apply, val_main_v25_apply, val_main_v22_apply,
    val_main_v19_apply, val_main_cst_7_apply, val_main_cst_8_apply, idx19_25, idx22_26, v18_eq, v21_eq, v24_eq,
    Ideal.ofBits_def, Ideal.addf_def, Ideal.subf_def, Ideal.mulf_def, Ideal.maximumf_def, Ideal.hostUnary_sqrt_def]
  rfl

/-- The distance from input row b to grid row n. -/
theorem v50_eq (x0 : (⟨S32768x1024, .f32⟩ : BufTy).Contents (Elt Ideal))
    (x2 : (⟨S256x1024, .f32⟩ : BufTy).Contents (Elt Ideal)) (b : Fin 32768) (n : Fin 256) :
    val_main_v50 (F := Ideal) x0 x2 (ix2 b n)
      = dist (ss (fun k => x0 (ix2 b k))) (ss (fun k => x2 (ix2 n k)))
          (dot (fun k => x0 (ix2 b k)) (fun k => x2 (ix2 n k))) := by
  simp only [val_main_v50_apply, val_main_v49_apply, val_main_v48_apply, val_main_v47_apply, val_main_v46_apply,
    val_main_v45_apply, val_main_v44_apply, val_main_v43_apply, val_main_v42_apply, val_main_v39_apply,
    val_main_v36_apply, val_main_cst_11_apply, val_main_cst_12_apply, idx36_42, idx39_43, v35_eq, v38_eq, v41_eq,
    Ideal.ofBits_def, Ideal.addf_def, Ideal.subf_def, Ideal.mulf_def, Ideal.maximumf_def, Ideal.hostUnary_sqrt_def]
  rfl

/-- Row b's logits, as the specification writes them from the argument arrays. -/
abbrev rowLogits (x0 : (⟨S32768x1024, .f32⟩ : BufTy).Contents (Elt Ideal))
    (x1 x2 : (⟨S256x1024, .f32⟩ : BufTy).Contents (Elt Ideal)) (x3 : (⟨S1, .f32⟩ : BufTy).Contents (Elt Ideal)) (b : Fin 32768) : Fin 256 → EReal :=
  logits (fun k => x0 (ix2 b k)) (fun n k => x1 (ix2 n k)) (fun n k => x2 (ix2 n k)) (temp (x3 (ix1 0)))

/-- The gates, as the specification writes them from the argument array. -/
abbrev gates (x4 : (⟨S256, .f32⟩ : BufTy).Contents (Elt Ideal)) : Fin 256 → EReal := fun j => sigm (x4 (ix1 j))

theorem idx53_54 (b : Fin 32768) (n : Fin 256) : idx_main_v53 (idx_main_v54 (ix2 b n)) = ix1 (0 : Fin 1) :=
  funext fun a => Fin.ext (by match a with | ⟨0, _⟩ => rfl)

/-- The logit of input row b against prototype n. -/
theorem v55_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal)) (b : Fin 32768) (n : Fin 256) :
    val_main_v55 (F := Ideal) x0 x1 x2 x3 (ix2 b n) = rowLogits x0 x1 x2 x3 b n := by
  simp only [val_main_v55_apply, val_main_v54_apply, val_main_v53_apply, val_main_v52_apply, val_main_v51_apply,
    idx53_54, v9_eq, v33_eq, v50_eq, Ideal.hostDivf_def, Ideal.hostNegf_def, Ideal.negf_def, Ideal.addf_def]
  rfl

/-! ## The row maximum -/

/-- The index that puts coordinate n back on the reduced axis of row b is (b, n). -/
theorem lift56 (h : S32768x256.Reduces [1] S32768) (b : Fin 32768) (n : Fin 256) : h.lift (ix1 b) n = ix2 b n :=
  funext fun a => Fin.ext (by match a with | ⟨0, _⟩ => rfl | ⟨1, _⟩ => rfl)

/-- The maximum-reduce over the prototypes: the fold of max from the word of −∞ over row b's logits. -/
theorem v56_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal)) (b : Fin 32768) :
    val_main_v56 (F := Ideal) x0 x1 x2 x3 (ix1 b) = rowMax (rowLogits x0 x1 x2 x3 b) := by
  unfold val_main_v56
  have h : S32768x256.Reduces [1] S32768 := by decide
  refine (Host.reduce_eq_fold_single FloatOps.maximumf _ _ reducesTo_S32768x256_S32768_d1 h h_S_ (ix1 b)).trans ?_
  exact congrArg (fun v : Fin 256 → EReal => (Finset.univ : Finset (Fin 256)).fold max negInf v)
    (funext fun n => (congrArg (val_main_v55 (F := Ideal) x0 x1 x2 x3) (lift56 h b n)).trans (v55_eq x0 x1 x2 x3 b n))

/-- The reference takes the maximum of that fold with −∞ once more; it changes nothing. -/
theorem v58_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal)) (b : Fin 32768) :
    val_main_v58 (F := Ideal) x0 x1 x2 x3 (ix1 b) = rowMax (rowLogits x0 x1 x2 x3 b) := by
  rw [val_main_v58_apply, v56_eq, val_main_v57_apply, val_main_cst_14_apply]
  exact max_negInf_rowMax _

/-! ## The soft maximum, the gate and the renormalisation -/

theorem idx59_60 (b : Fin 32768) (n : Fin 256) : idx_main_v59 (idx_main_v60 (ix2 b n)) = ix1 b :=
  funext fun a => Fin.ext (by match a with | ⟨0, _⟩ => rfl)

/-- The shifted exponential of the logit. -/
theorem v62_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal)) (b : Fin 32768) (n : Fin 256) :
    val_main_v62 (F := Ideal) x0 x1 x2 x3 (ix2 b n) = expo (rowLogits x0 x1 x2 x3 b) n := by
  simp only [val_main_v62_apply, val_main_v61_apply, val_main_v60_apply, val_main_v59_apply, idx59_60, v55_eq, v58_eq,
    Ideal.subf_def, Ideal.hostUnary_exp_def]
  rfl

theorem idx63 (b : Fin 32768) (k : Fin 256) : idx_main_v63 (ix1 b) k = ix2 b k :=
  funext fun a => Fin.ext (by match a with | ⟨0, _⟩ => rfl | ⟨1, _⟩ => rfl)

/-- The sum of row b's shifted exponentials. -/
theorem v63_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal)) (b : Fin 32768) :
    val_main_v63 (F := Ideal) x0 x1 x2 x3 (ix1 b) = ∑ i : Fin 256, expo (rowLogits x0 x1 x2 x3 b) i := by
  rw [val_main_v63_apply]
  simp only [idx63, v62_eq, val_main_cst_15_apply, Ideal.ofBits_def]
  exact zero_add_eq _

theorem idx64_65 (b : Fin 32768) (n : Fin 256) : idx_main_v64 (idx_main_v65 (ix2 b n)) = ix1 b :=
  funext fun a => Fin.ext (by match a with | ⟨0, _⟩ => rfl)
theorem idx16_67 (b : Fin 32768) (n : Fin 256) : idx_main_v16 (idx_main_v67 (ix2 b n)) = ix1 n :=
  funext fun a => Fin.ext (by match a with | ⟨0, _⟩ => rfl)

/-- The soft maximum times the gate. -/
theorem v68_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal))
    (x4 : (⟨S256, .f32⟩ : BufTy).Contents (Elt Ideal)) (b : Fin 32768) (n : Fin 256) :
    val_main_v68 (F := Ideal) x0 x1 x2 x3 x4 (ix2 b n) = gated (rowLogits x0 x1 x2 x3 b) (gates x4) n := by
  simp only [val_main_v68_apply, val_main_v67_apply, val_main_v66_apply, val_main_v65_apply, val_main_v64_apply,
    val_main_v16_apply, idx64_65, idx16_67, v62_eq, v63_eq, v15_eq, Ideal.mulf_def, Ideal.hostDivf_def]
  rfl

theorem idx69 (b : Fin 32768) (k : Fin 256) : idx_main_v69 (ix1 b) k = ix2 b k :=
  funext fun a => Fin.ext (by match a with | ⟨0, _⟩ => rfl | ⟨1, _⟩ => rfl)

/-- The sum of row b's gated soft maxima. -/
theorem v69_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal))
    (x4 : (⟨S256, .f32⟩ : BufTy).Contents (Elt Ideal)) (b : Fin 32768) :
    val_main_v69 (F := Ideal) x0 x1 x2 x3 x4 (ix1 b) = ∑ i : Fin 256, gated (rowLogits x0 x1 x2 x3 b) (gates x4) i := by
  rw [val_main_v69_apply]
  simp only [idx69, v68_eq, val_main_cst_16_apply, Ideal.ofBits_def]
  exact zero_add_eq _

theorem idx70_73 (b : Fin 32768) (n : Fin 256) : idx_main_v70 (idx_main_v73 (ix2 b n)) = ix1 b :=
  funext fun a => Fin.ext (by match a with | ⟨0, _⟩ => rfl)

/-- The weight of prototype n for input row b. -/
theorem v74_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal))
    (x4 : (⟨S256, .f32⟩ : BufTy).Contents (Elt Ideal)) (b : Fin 32768) (n : Fin 256) :
    val_main_v74 (F := Ideal) x0 x1 x2 x3 x4 (ix2 b n) = weight (rowLogits x0 x1 x2 x3 b) (gates x4) n := by
  simp only [val_main_v74_apply, val_main_v73_apply, val_main_v72_apply, val_main_v71_apply, val_main_v70_apply,
    val_main_cst_17_apply, idx70_73, v68_eq, v69_eq, Ideal.ofBits_def, Ideal.addf_def, Ideal.hostDivf_def]
  rfl

/-! ## The two results -/

/-- The reference's weights are the specification's. -/
theorem weights_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal))
    (x4 : (⟨S256, .f32⟩ : BufTy).Contents (Elt Ideal)) :
    val_main_v74 (F := Ideal) x0 x1 x2 x3 x4 = Weights x0 x1 x2 x3 x4 := by
  funext i
  obtain ⟨b, n, rfl⟩ : ∃ (b : Fin 32768) (n : Fin 256), i = ix2 b n := ⟨i 0, i 1, eq_ix2 i⟩
  exact (v74_eq x0 x1 x2 x3 x4 b n).trans (Weights_apply x0 x1 x2 x3 x4 b n).symm

theorem lidx75 (b : Fin 32768) (d : Fin 1024) (k : Fin 256) : lidx_main_v75 (ix2 b d) k = ix2 b k :=
  funext fun a => Fin.ext (by match a with | ⟨0, _⟩ => rfl | ⟨1, _⟩ => rfl)
theorem ridx75 (b : Fin 32768) (d : Fin 1024) (k : Fin 256) : ridx_main_v75 (ix2 b d) k = ix2 k d :=
  funext fun a => Fin.ext (by match a with | ⟨0, _⟩ => rfl | ⟨1, _⟩ => rfl)

/-- The reference's blend is the specification's: the weights applied to the prototype table's columns. -/
theorem blended_eq (x0 : (⟨S32768x1024, .f32⟩ : BufTy).Contents (Elt Ideal))
    (x1 x2 : (⟨S256x1024, .f32⟩ : BufTy).Contents (Elt Ideal)) (x3 : (⟨S1, .f32⟩ : BufTy).Contents (Elt Ideal))
    (x4 : (⟨S256, .f32⟩ : BufTy).Contents (Elt Ideal)) :
    val_main_v75 (F := Ideal) x0 x1 x2 x3 x4 = Blended x0 x1 x2 x3 x4 := by
  funext i
  obtain ⟨b, d, rfl⟩ : ∃ (b : Fin 32768) (d : Fin 1024), i = ix2 b d := ⟨i 0, i 1, eq_ix2 i⟩
  rw [val_main_v75_apply, Blended_apply]
  refine Finset.sum_congr rfl fun n _ => ?_
  rw [lidx75, ridx75, v74_eq, Weights_apply]

end Cert.SoftSom.Ref

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelBody.lean ====
/-
  The kernel body's arithmetic at one element, on the extended reals. The body works on a block of 512 input rows;
  element `(r, n)` of what it stores depends only on row `r` of the block and on the resident tables:
    • the logit block (before the division by the temperature) at `(r, n)` is `0 − (d(x_r, P n) + d(x_r, G n))`, the two
      squared norms of the table rows read from the precomputed rows `p2`, `g2`, the inner products the two
      matrix products with the transposed tables;
    • the stored weights at `(r, n)` are `weight` of row `r` of the logits (divided by the temperature, a `[1, 1]`
      block broadcast everywhere) and of the gate row;
    • the stored blend at `(r, d)` is the sum over the 256 prototypes of weight times the table's entry.
  A lane reduction is read as a sum (or a fold of `max`) over the row, a product of matrices into a zero accumulator as
  the sum of products over the contracted axis, a change of float format as the identity.
-/
import proofs.«151267_j4114578669898_1_alg».proof.Proof.Gen.KernelIdeal.Skeleton
import proofs.«151267_j4114578669898_1_alg».proof.Proof.Spec
import proofs.«151267_j4114578669898_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.SoftSom.Body

open Cert.KernelIdeal Cert.KernelIdeal.Gen Cert.SoftSom Cert.ColumnLayout
open Idealize.ShloMosaic Idealize.ShloMosaic.ValueIdx

/-! ## Pointwise roots and exponentials at an index -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl

/-! ## Lane reductions at a row -/

/-- The sum along the lanes of a `[512, 1024]` block, at row `r`: the sum of the row. -/
theorem laneSum1024 (src : FVec Ideal S512x1024 .f32) (h : S512x1024.Reduces [1] S512) (hφ : FKind.Formats .f32)
    (hacc : (0x00000000#32 : BitVec 32) = 0x00000000#32) (r : Fin 512) :
    multiReduction .add [1] S512 src 0x00000000#32 h hφ hacc (ix1 r) = ∑ k : Fin 1024, src (ix2 r k) := by
  refine (Ideal.multiReduction_add_single src 0x00000000#32 h hφ hacc (ix1 r)).trans ?_
  exact Finset.sum_congr rfl fun k _ => congrArg src (funext fun a => Fin.ext (by match a with | ⟨0, _⟩ => rfl | ⟨1, _⟩ => rfl))

/-- The sum along the lanes of a `[512, 256]` block, at row `r`: the sum of the row. -/
theorem laneSum256 (src : FVec Ideal S512x256 .f32) (h : S512x256.Reduces [1] S512) (hφ : FKind.Formats .f32)
    (hacc : (0x00000000#32 : BitVec 32) = 0x00000000#32) (r : Fin 512) :
    multiReduction .add [1] S512 src 0x00000000#32 h hφ hacc (ix1 r) = ∑ k : Fin 256, src (ix2 r k) := by
  refine (Ideal.multiReduction_add_single src 0x00000000#32 h hφ hacc (ix1 r)).trans ?_
  exact Finset.sum_congr rfl fun k _ => congrArg src (funext fun a => Fin.ext (by match a with | ⟨0, _⟩ => rfl | ⟨1, _⟩ => rfl))

/-- The maximum along the lanes of a `[512, 256]` block, at row `r`: the fold of `max` over the row from −∞'s word. -/
theorem laneMax256 (src : FVec Ideal S512x256 .f32) (h : S512x256.Reduces [1] S512) (hφ : FKind.Formats .f32)
    (hacc : (0xFF800000#32 : BitVec 32) = 0xFF800000#32) (r : Fin 512) :
    multiReduction .maximumf [1] S512 src 0xFF800000#32 h hφ hacc (ix1 r) = rowMax (fun j => src (ix2 r j)) := by
  refine (Ideal.multiReduction_maximumf_single src 0xFF800000#32 h hφ hacc (ix1 r)).trans ?_
  have e : (src ∘ h.lift (ix1 r)) = fun j : Fin 256 => src (ix2 r j) :=
    funext fun j => congrArg src (funext fun a => Fin.ext (by match a with | ⟨0, _⟩ => rfl | ⟨1, _⟩ => rfl))
  rw [e]
  rfl

/-! ## A reduced column kept as `[512, 1]` and broadcast back over the lanes -/

theorem colSum1024_apply (src : FVec Ideal S512x1024 .f32) (h : S512x1024.Reduces [1] S512) (hφ : FKind.Formats .f32)
    (hacc : (0x00000000#32 : BitVec 32) = 0x00000000#32) (hc : S512.ShapeCasts S512x1) (hb : S512x1.Broadcasts S512x256)
    (r : Fin 512) (n : Fin 256) :
    broadcastTo S512x256 (shapeCast S512x1 (multiReduction .add [1] S512 src 0x00000000#32 h hφ hacc) hc) hb (ix2 r n)
      = ∑ k : Fin 1024, src (ix2 r k) := by
  rw [broadcastTo_a1_ab_apply, shapeCast_a_a1_apply, laneSum1024]

theorem colSum256_apply (src : FVec Ideal S512x256 .f32) (h : S512x256.Reduces [1] S512) (hφ : FKind.Formats .f32)
    (hacc : (0x00000000#32 : BitVec 32) = 0x00000000#32) (hc : S512.ShapeCasts S512x1) (hb : S512x1.Broadcasts S512x256)
    (r : Fin 512) (n : Fin 256) :
    broadcastTo S512x256 (shapeCast S512x1 (multiReduction .add [1] S512 src 0x00000000#32 h hφ hacc) hc) hb (ix2 r n)
      = ∑ k : Fin 256, src (ix2 r k) := by
  rw [broadcastTo_a1_ab_apply, shapeCast_a_a1_apply, laneSum256]

theorem colMax256_apply (src : FVec Ideal S512x256 .f32) (h : S512x256.Reduces [1] S512) (hφ : FKind.Formats .f32)
    (hacc : (0xFF800000#32 : BitVec 32) = 0xFF800000#32) (hc : S512.ShapeCasts S512x1) (hb : S512x1.Broadcasts S512x256)
    (r : Fin 512) (n : Fin 256) :
    broadcastTo S512x256 (shapeCast S512x1 (multiReduction .maximumf [1] S512 src 0xFF800000#32 h hφ hacc) hc) hb (ix2 r n)
      = rowMax (fun j => src (ix2 r j)) := by
  rw [broadcastTo_a1_ab_apply, shapeCast_a_a1_apply, laneMax256]

/-- The last normalisation keeps the column `[512, 1]`, adds ε there, and broadcasts the sum. -/
theorem colSumEps_apply (src : FVec Ideal S512x256 .f32) (h : S512x256.Reduces [1] S512) (hφ : FKind.Formats .f32)
    (hacc : (0x00000000#32 : BitVec 32) = 0x00000000#32) (hc : S512.ShapeCasts S512x1) (hb : S512x1.Broadcasts S512x256)
    (e : Ideal .f32) (r : Fin 512) (n : Fin 256) :
    broadcastTo S512x256 (addf (shapeCast S512x1 (multiReduction .add [1] S512 src 0x00000000#32 h hφ hacc) hc) (broadcast S512x1 e)) hb (ix2 r n)
      = (∑ k : Fin 256, src (ix2 r k)) + e := by
  rw [broadcastTo_a1_ab_apply, addf_apply, shapeCast_a_a1_apply, laneSum256]
  rfl

/-- A resident `[1, 256]` row broadcast over the 512 rows. -/
theorem row256_apply (v : FVec Ideal S1x256 .f32) (hc : S1x256.ShapeCasts S1x256) (hb : S1x256.Broadcasts S512x256)
    (r : Fin 512) (n : Fin 256) :
    broadcastTo S512x256 (shapeCast S1x256 v hc) hb (ix2 r n) = v (ix2 (0 : Fin 1) n) := by
  rw [shapeCast_self, broadcastTo_1b_ab_apply]

/-- The `[1, 1]` temperature block broadcast everywhere. -/
theorem pay4_apply (v36 : FVec Ideal S1x1 .f32) (r : Fin 512) (n : Fin 256) :
    k0_pay4 (F := Ideal) v36 (ix2 r n) = v36 (ix2 (0 : Fin 1) (0 : Fin 1)) := by
  unfold k0_pay4
  rw [shapeCast_self]
  exact broadcastTo_apply _ _ (ix2 r n) (ix2 (0 : Fin 1) (0 : Fin 1)) fun a => by
    match a with
    | ⟨0, _⟩ => rfl
    | ⟨1, _⟩ => rfl

/-! ## The matrix products as sums over the contracted axis -/

/-- `[512, 1024] × [1024, 256]` into a zero accumulator, at `(r, n)`. -/
theorem mm1_apply (a : FVec Ideal S512x1024 .bf16) (b : FVec Ideal S1024x256 .bf16) (r : Fin 512) (n : Fin 256) :
    matmul dot_S512x1024_S1024x256_S512x256_1_0_0_1_n_n none a b (constant (F := Ideal) S512x256 .f32 0x00000000#32) (ix2 r n)
      = ∑ k : Fin 1024, a (ix2 r k) * b (ix2 k n) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r n) ((contrEquiv1 dot_S512x1024_S1024x256_S512x256_1_0_0_1_n_n 1024 rfl rfl).symm k) = ix2 r k :=
    funext fun c => Fin.ext (by
      match c with
      | ⟨0, _⟩ =>
        show (dot_S512x1024_S1024x256_S512x256_1_0_0_1_n_n.lhsIdx (ix2 r n) _ 0).val = r.val
        unfold DotDims.lhsIdx
        rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
        rfl
      | ⟨1, _⟩ => exact (dot_S512x1024_S1024x256_S512x256_1_0_0_1_n_n.lhsIdx_val_of_single rfl _ _).trans hk)
  have er : dot_S512x1024_S1024x256_S512x256_1_0_0_1_n_n.rhsIdx (ix2 r n) ((contrEquiv1 dot_S512x1024_S1024x256_S512x256_1_0_0_1_n_n 1024 rfl rfl).symm k) = ix2 k n :=
    funext fun c => Fin.ext (by
      match c with
      | ⟨0, _⟩ => exact (dot_S512x1024_S1024x256_S512x256_1_0_0_1_n_n.rhsIdx_val_of_single rfl _ _).trans hk
      | ⟨1, _⟩ =>
        show (dot_S512x1024_S1024x256_S512x256_1_0_0_1_n_n.rhsIdx (ix2 r n) _ 1).val = n.val
        unfold DotDims.rhsIdx
        rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
        rfl)
  rw [el, er]

/-- `[512, 256] × [256, 1024]` into a zero accumulator, at `(r, d)`. -/
theorem mm2_apply (a : FVec Ideal S512x256 .bf16) (b : FVec Ideal S256x1024 .bf16) (r : Fin 512) (d : Fin 1024) :
    matmul dot_S512x256_S256x1024_S512x1024_1_0_0_1_n_n none a b (constant (F := Ideal) S512x1024 .f32 0x00000000#32) (ix2 r d)
      = ∑ j : Fin 256, a (ix2 r j) * b (ix2 j d) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 r d) ((contrEquiv1 dot_S512x256_S256x1024_S512x1024_1_0_0_1_n_n 256 rfl rfl).symm k) = ix2 r k :=
    funext fun c => Fin.ext (by
      match c with
      | ⟨0, _⟩ =>
        show (dot_S512x256_S256x1024_S512x1024_1_0_0_1_n_n.lhsIdx (ix2 r d) _ 0).val = r.val
        unfold DotDims.lhsIdx
        rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
        rfl
      | ⟨1, _⟩ => exact (dot_S512x256_S256x1024_S512x1024_1_0_0_1_n_n.lhsIdx_val_of_single rfl _ _).trans hk)
  have er : dot_S512x256_S256x1024_S512x1024_1_0_0_1_n_n.rhsIdx (ix2 r d) ((contrEquiv1 dot_S512x256_S256x1024_S512x1024_1_0_0_1_n_n 256 rfl rfl).symm k) = ix2 k d :=
    funext fun c => Fin.ext (by
      match c with
      | ⟨0, _⟩ => exact (dot_S512x256_S256x1024_S512x1024_1_0_0_1_n_n.rhsIdx_val_of_single rfl _ _).trans hk
      | ⟨1, _⟩ =>
        show (dot_S512x256_S256x1024_S512x1024_1_0_0_1_n_n.rhsIdx (ix2 r d) _ 1).val = d.val
        unfold DotDims.rhsIdx
        rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
        rfl)
  rw [el, er]

/-! ## The payloads at an element -/

/-- The negated distance sum at `(r, n)`: row `r` of the block against column `n` of the two transposed tables. -/
theorem pay3_apply (v0 : FVec Ideal S512x1024 .f32) (v5 v8 : FVec Ideal S1024x256 .bf16) (v11 v22 : FVec Ideal S1x256 .f32)
    (r : Fin 512) (n : Fin 256) :
    k0_pay3 (F := Ideal) v0 v5 v8 v11 v22 (ix2 r n)
      = zero - (dist (ss fun k => v0 (ix2 r k)) (v11 (ix2 (0 : Fin 1) n)) (∑ k : Fin 1024, v0 (ix2 r k) * v5 (ix2 k n))
              + dist (ss fun k => v0 (ix2 r k)) (v22 (ix2 (0 : Fin 1) n)) (∑ k : Fin 1024, v0 (ix2 r k) * v8 (ix2 k n))) := by
  unfold k0_pay3
  simp only [subf_apply, addf_apply, mulf_apply, maximumf_apply, sqrt_apply, broadcast_apply]
  rw [colSum1024_apply, row256_apply, row256_apply, mm1_apply, mm1_apply]
  simp only [shapeCast_self, truncf_apply]
  rfl

/-- The stored weight at `(r, n)`: `weight` of row `r` of the logits over the temperature, and of the gate row. -/
theorem pay1_apply (v35 v38 : FVec Ideal S512x256 .f32) (v49 : FVec Ideal S1x256 .f32) (r : Fin 512) (n : Fin 256) :
    k0_pay1 (F := Ideal) v35 v38 v49 (ix2 r n)
      = weight (fun j => Ideal.div (v35 (ix2 r j)) (v38 (ix2 r j))) (fun j => v49 (ix2 (0 : Fin 1) j)) n := by
  unfold k0_pay1
  -- the intermediate blocks, named: scaled logits, their row maximum, the exponentials, their row sum, the gate row,
  -- the gated soft maximum, its row sum plus ε
  let v39 : FVec Ideal S512x256 .f32 := divf v35 v38
  let v42 : FVec Ideal S512x256 .f32 := broadcastTo S512x256 (shapeCast S512x1
    (multiReduction .maximumf [1] S512 v39 0xFF800000#32 reduces_S512x256_S512 (.inl rfl) rfl) shapeCasts_S512_S512x1) broadcasts_S512x1_S512x256
  let v44 : FVec Ideal S512x256 .f32 := exp (subf v39 v42)
  let v47 : FVec Ideal S512x256 .f32 := broadcastTo S512x256 (shapeCast S512x1
    (multiReduction .add [1] S512 v44 0x00000000#32 reduces_S512x256_S512 (.inl rfl) rfl) shapeCasts_S512_S512x1) broadcasts_S512x1_S512x256
  let v51 : FVec Ideal S512x256 .f32 := broadcastTo S512x256 (shapeCast S1x256 v49 shapeCasts_S1x256_S1x256) broadcasts_S1x256_S512x256
  let v52 : FVec Ideal S512x256 .f32 := mulf (divf v44 v47) v51
  let v57 : FVec Ideal S512x256 .f32 := broadcastTo S512x256 (addf (shapeCast S512x1
    (multiReduction .add [1] S512 v52 0x00000000#32 reduces_S512x256_S512 (.inl rfl) rfl) shapeCasts_S512_S512x1)
      (broadcast S512x1 (Scalar.ofBits .f32 0x322BCC77#32))) broadcasts_S512x1_S512x256
  show divf v52 v57 (ix2 r n) = _
  have h39 : ∀ j, v39 (ix2 r j) = Ideal.div (v35 (ix2 r j)) (v38 (ix2 r j)) := fun j => rfl
  have h42 : ∀ j, v42 (ix2 r j) = rowMax (fun j => Ideal.div (v35 (ix2 r j)) (v38 (ix2 r j))) := fun j =>
    (colMax256_apply v39 _ _ _ _ _ r j).trans (congrArg rowMax (funext h39))
  have h44 : ∀ j, v44 (ix2 r j) = expo (fun j => Ideal.div (v35 (ix2 r j)) (v38 (ix2 r j))) j := fun j => by
    show Ideal.exp (v39 (ix2 r j) - v42 (ix2 r j)) = _
    rw [h39, h42]
    rfl
  have h47 : ∀ j, v47 (ix2 r j) = ∑ i : Fin 256, expo (fun j => Ideal.div (v35 (ix2 r j)) (v38 (ix2 r j))) i := fun j =>
    (colSum256_apply v44 _ _ _ _ _ r j).trans (Finset.sum_congr rfl fun i _ => h44 i)
  have h51 : ∀ j, v51 (ix2 r j) = v49 (ix2 (0 : Fin 1) j) := fun j => row256_apply v49 _ _ r j
  have h52 : ∀ j, v52 (ix2 r j)
      = gated (fun j => Ideal.div (v35 (ix2 r j)) (v38 (ix2 r j))) (fun j => v49 (ix2 (0 : Fin 1) j)) j := fun j => by
    show Ideal.div (v44 (ix2 r j)) (v47 (ix2 r j)) * v51 (ix2 r j) = _
    rw [h44, h47, h51]
    rfl
  have h57 : v57 (ix2 r n)
      = (∑ i : Fin 256, gated (fun j => Ideal.div (v35 (ix2 r j)) (v38 (ix2 r j))) (fun j => v49 (ix2 (0 : Fin 1) j)) i) + eps :=
    (colSumEps_apply v52 _ _ _ _ _ _ r n).trans (congrArg (· + eps) (Finset.sum_congr rfl fun i _ => h52 i))
  show Ideal.div (v52 (ix2 r n)) (v57 (ix2 r n)) = _
  rw [h52, h57]
  rfl

/-- The stored blend at `(r, d)`: the stored weights of row `r` against column `d` of the prototype table. -/
theorem pay2_apply (v35 v38 : FVec Ideal S512x256 .f32) (v49 : FVec Ideal S1x256 .f32) (v60 : FVec Ideal S256x1024 .bf16)
    (r : Fin 512) (d : Fin 1024) :
    k0_pay2 (F := Ideal) v35 v38 v49 v60 (ix2 r d)
      = ∑ j : Fin 256, k0_pay1 (F := Ideal) v35 v38 v49 (ix2 r j) * v60 (ix2 j d) := by
  unfold k0_pay2
  rw [shapeCast_self, mm2_apply]
  rfl

end Cert.SoftSom.Body

end
-- ==== Proof.KernelPoint.lean ====
/-
  What one grid point's body leaves in its two output buffers, element by element, from what its eight input blocks
  hold. If row `r` of the input block is the row `xr r`, the two transposed table blocks hold `P n k` and `G n k` at
  `(k, n)`, the two norm rows hold `‖P n‖²` and `‖G n‖²`, the gate row `gate n` and the `[1, 1]` block the temperature
  `T`, then the weights buffer holds at `(r, n)` the weight of prototype `n` for the row `xr r`, and the blend buffer at
  `(r, d)` those weights applied to column `d` of the table block. The kernel writes its negation as `0 − x`: the one
  law used is that this is `−x` on the extended reals.
-/
import proofs.«151267_j4114578669898_1_alg».proof.Proof.Gen.KernelIdeal.Frame
import proofs.«151267_j4114578669898_1_alg».proof.Proof.KernelBody
import proofs.«151267_j4114578669898_1_alg».proof.Proof.Spec

noncomputable section

namespace Cert.SoftSom.Point

open Cert.KernelIdeal Cert.KernelIdeal.Gen Cert.SoftSom Cert.SoftSom.Body
open Idealize.ShloMosaic Idealize.ShloMosaic.ValueIdx

theorem hz : (![0, 0] : Fin 2 → Nat) = fun _ => 0 := funext fun a => by fin_cases a <;> rfl

section
variable (x0 : FVec Ideal S512x1024 .f32) (x1 x2 : FVec Ideal S1024x256 .bf16) (x3 : FVec Ideal S256x1024 .bf16)
  (x4 x5 x6 : FVec Ideal S1x256 .f32) (x7 : FVec Ideal S1x1 .f32)
  (xr : Fin 512 → Fin 1024 → EReal) (P G : Fin 256 → Fin 1024 → EReal) (gate : Fin 256 → EReal) (T : EReal)

/-- The stored weight at `(r, n)` is the specification's weight of prototype `n` for row `xr r`. -/
theorem stored_weight (h0 : ∀ r k, x0 (ix2 r k) = xr r k) (h1 : ∀ k n, x1 (ix2 k n) = P n k) (h2 : ∀ k n, x2 (ix2 k n) = G n k)
    (h4 : ∀ n, x4 (ix2 (0 : Fin 1) n) = ss (P n)) (h5 : ∀ n, x5 (ix2 (0 : Fin 1) n) = ss (G n))
    (h6 : ∀ n, x6 (ix2 (0 : Fin 1) n) = gate n) (h7 : x7 (ix2 (0 : Fin 1) (0 : Fin 1)) = T) (r : Fin 512) (n : Fin 256) :
    k0_pay1 (F := Ideal) (k0_pay3 (F := Ideal) x0 x1 x2 x4 x5) (k0_pay4 (F := Ideal) x7) x6 (ix2 r n)
      = weight (logits (xr r) P G T) gate n := by
  rw [pay1_apply]
  have hl : (fun j => Ideal.div (k0_pay3 (F := Ideal) x0 x1 x2 x4 x5 (ix2 r j)) (k0_pay4 (F := Ideal) x7 (ix2 r j)))
      = logits (xr r) P G T := by
    funext j
    have e0 : (fun k => x0 (ix2 r k)) = xr r := funext (h0 r)
    have e1 : (∑ k : Fin 1024, x0 (ix2 r k) * x1 (ix2 k j)) = dot (xr r) (P j) :=
      Finset.sum_congr rfl fun k _ => by rw [h0, h1]
    have e2 : (∑ k : Fin 1024, x0 (ix2 r k) * x2 (ix2 k j)) = dot (xr r) (G j) :=
      Finset.sum_congr rfl fun k _ => by rw [h0, h2]
    rw [pay3_apply, pay4_apply, h7, h4, h5, zero_sub_eq_neg, e0, e1, e2]
    rfl
  have hg : (fun j => x6 (ix2 (0 : Fin 1) j)) = gate := funext h6
  rw [hl, hg]

/-- The weights buffer after the body, at `(r, n)`. -/
theorem out9_apply (h0 : ∀ r k, x0 (ix2 r k) = xr r k) (h1 : ∀ k n, x1 (ix2 k n) = P n k) (h2 : ∀ k n, x2 (ix2 k n) = G n k)
    (h4 : ∀ n, x4 (ix2 (0 : Fin 1) n) = ss (P n)) (h5 : ∀ n, x5 (ix2 (0 : Fin 1) n) = ss (G n))
    (h6 : ∀ n, x6 (ix2 (0 : Fin 1) n) = gate n) (h7 : x7 (ix2 (0 : Fin 1) (0 : Fin 1)) = T) (r : Fin 512) (n : Fin 256) :
    out0_9 (F := Ideal) x0 x1 x2 x3 x4 x5 x6 x7 (ix2 r n) = weight (logits (xr r) P G T) gate n := by
  unfold out0_9
  rw [View.canon_unit_zero hz]
  simp only [View.ld_unit_zero (S := S512x1024) hz, View.ld_unit_zero (S := S1024x256) hz, View.ld_unit_zero (S := S1x256) hz,
    View.ld_unit_zero (S := S1x1) hz]
  exact stored_weight x0 x1 x2 x4 x5 x6 x7 xr P G gate T h0 h1 h2 h4 h5 h6 h7 r n

/-- The blend buffer after the body, at `(r, d)`. -/
theorem out8_apply (h0 : ∀ r k, x0 (ix2 r k) = xr r k) (h1 : ∀ k n, x1 (ix2 k n) = P n k) (h2 : ∀ k n, x2 (ix2 k n) = G n k)
    (h3 : ∀ n d, x3 (ix2 n d) = P n d)
    (h4 : ∀ n, x4 (ix2 (0 : Fin 1) n) = ss (P n)) (h5 : ∀ n, x5 (ix2 (0 : Fin 1) n) = ss (G n))
    (h6 : ∀ n, x6 (ix2 (0 : Fin 1) n) = gate n) (h7 : x7 (ix2 (0 : Fin 1) (0 : Fin 1)) = T) (r : Fin 512) (d : Fin 1024) :
    out0_8 (F := Ideal) x0 x1 x2 x3 x4 x5 x6 x7 (ix2 r d) = ∑ n : Fin 256, weight (logits (xr r) P G T) gate n * P n d := by
  unfold out0_8
  rw [View.canon_unit_zero hz]
  simp only [View.ld_unit_zero (S := S512x1024) hz, View.ld_unit_zero (S := S1024x256) hz, View.ld_unit_zero (S := S1x256) hz,
    View.ld_unit_zero (S := S1x1) hz, View.ld_unit_zero (S := S256x1024) hz]
  rw [pay2_apply]
  refine Finset.sum_congr rfl fun j _ => ?_
  rw [h3, stored_weight x0 x1 x2 x4 x5 x6 x7 xr P G gate T h0 h1 h2 h4 h5 h6 h7 r j]

end

end Cert.SoftSom.Point

end
-- ==== Proof.KernelBlocks.lean ====
/-
  The windows' blocks as the region finds them. The grid has 64 points; point `t` reads rows `512·t … 512·t + 511` of
  the input array and writes the same rows of the two result arrays, while the seven resident windows (the two
  transposed tables, the table, the two rows of squared norms, the gate row, the temperature) have one block, the
  whole array, at every point. The block index maps are decided once over the 64 points; an element of a block sits
  in its array, on each axis, at block index × block size + its coordinate inside the block.
-/
import proofs.«151267_j4114578669898_1_alg».proof.Proof.Gen.KernelIdeal.Frame
import Idealize.ShloMosaic.Lib.Pipeline.Value
import Idealize.ShloMosaic.Lib.ValueIdx

noncomputable section

namespace Cert.SoftSom.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The moving windows (the input and the two results) are at block `(t, 0)` at point `t`. -/
theorem idx_moving : ∀ t : Fin cfg0.N, win0_0.index t (0 : Fin 2) = t.val ∧ win0_0.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The resident windows are at block `(0, 0)` at every point. -/
theorem idx_resident : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem lt64 (t : Fin cfg0.N) : t.val < 64 :=
  Nat.lt_of_lt_of_eq t.isLt (N_0 : cfg0.N = 64)

/-- The row of the arrays that row `r` of point `t`'s blocks is. -/
def rowOf (t : Fin cfg0.N) (r : Fin 512) : Fin 32768 :=
  ⟨512 * t.val + r.val, by have := lt64 t; have := r.isLt; omega⟩

/-- Row `r` of the input block at point `t` is row `512·t + r` of the input array, which no host operation writes. -/
theorem iblk0_apply (c : Dev nD) (t : Fin cfg0.N) (r : Fin 512) (k : Fin 1024) :
    (iblk m c 0 t : Vec Ideal S512x1024 .f32) (ix2 r k)
      = (m ((c : Thread nD τ).loc main_arg0) : S32768x1024.Idx → Ideal .f32) (ix2 (rowOf t r) k) := by
  obtain ⟨e0, e1, -⟩ := idx_moving t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 1024 + 1 * k.val = k.val; rw [e1]; omega

/-- Window 1's block is its whole array at every point. -/
theorem iblk1_apply (c : Dev nD) (t : Fin cfg0.N) (p : Fin 1024) (q : Fin 256) :
    (iblk m c 1 t : Vec Ideal S1024x256 .bf16) (ix2 p q) = (V m c main_v25 : S1024x256.Idx → Ideal .bf16) (ix2 p q) := by
  obtain ⟨⟨e0, e1⟩, -, -, -, -, -, -⟩ := idx_resident t
  unfold iblk
  rw [View.read_apply]
  show V m c main_v25 _ = V m c main_v25 _
  refine congrArg (V m c main_v25) (funext fun a => Fin.ext ?_)
  match a with
  | ⟨0, _⟩ => show win0_1.index t (0 : Fin 2) * 1024 + 1 * p.val = p.val; rw [e0]; omega
  | ⟨1, _⟩ => show win0_1.index t (1 : Fin 2) * 256 + 1 * q.val = q.val; rw [e1]; omega

/-- Window 2's block is its whole array at every point. -/
theorem iblk2_apply (c : Dev nD) (t : Fin cfg0.N) (p : Fin 1024) (q : Fin 256) :
    (iblk m c 2 t : Vec Ideal S1024x256 .bf16) (ix2 p q) = (V m c main_v27 : S1024x256.Idx → Ideal .bf16) (ix2 p q) := by
  obtain ⟨-, ⟨e0, e1⟩, -, -, -, -, -⟩ := idx_resident t
  unfold iblk
  rw [View.read_apply]
  show V m c main_v27 _ = V m c main_v27 _
  refine congrArg (V m c main_v27) (funext fun a => Fin.ext ?_)
  match a with
  | ⟨0, _⟩ => show win0_2.index t (0 : Fin 2) * 1024 + 1 * p.val = p.val; rw [e0]; omega
  | ⟨1, _⟩ => show win0_2.index t (1 : Fin 2) * 256 + 1 * q.val = q.val; rw [e1]; omega

/-- Window 3's block is its whole array at every point. -/
theorem iblk3_apply (c : Dev nD) (t : Fin cfg0.N) (p : Fin 256) (q : Fin 1024) :
    (iblk m c 3 t : Vec Ideal S256x1024 .bf16) (ix2 p q) = (V m c main_v28 : S256x1024.Idx → Ideal .bf16) (ix2 p q) := by
  obtain ⟨-, -, ⟨e0, e1⟩, -, -, -, -⟩ := idx_resident t
  unfold iblk
  rw [View.read_apply]
  show V m c main_v28 _ = V m c main_v28 _
  refine congrArg (V m c main_v28) (funext fun a => Fin.ext ?_)
  match a with
  | ⟨0, _⟩ => show win0_3.index t (0 : Fin 2) * 256 + 1 * p.val = p.val; rw [e0]; omega
  | ⟨1, _⟩ => show win0_3.index t (1 : Fin 2) * 1024 + 1 * q.val = q.val; rw [e1]; omega

/-- Window 4's block is its whole array at every point. -/
theorem iblk4_apply (c : Dev nD) (t : Fin cfg0.N) (p : Fin 1) (q : Fin 256) :
    (iblk m c 4 t : Vec Ideal S1x256 .f32) (ix2 p q) = (V m c main_v20 : S1x256.Idx → Ideal .f32) (ix2 p q) := by
  obtain ⟨-, -, -, ⟨e0, e1⟩, -, -, -⟩ := idx_resident t
  unfold iblk
  rw [View.read_apply]
  show V m c main_v20 _ = V m c main_v20 _
  refine congrArg (V m c main_v20) (funext fun a => Fin.ext ?_)
  match a with
  | ⟨0, _⟩ => show win0_4.index t (0 : Fin 2) * 1 + 1 * p.val = p.val; rw [e0]; omega
  | ⟨1, _⟩ => show win0_4.index t (1 : Fin 2) * 256 + 1 * q.val = q.val; rw [e1]; omega

/-- Window 5's block is its whole array at every point. -/
theorem iblk5_apply (c : Dev nD) (t : Fin cfg0.N) (p : Fin 1) (q : Fin 256) :
    (iblk m c 5 t : Vec Ideal S1x256 .f32) (ix2 p q) = (V m c main_v23 : S1x256.Idx → Ideal .f32) (ix2 p q) := by
  obtain ⟨-, -, -, -, ⟨e0, e1⟩, -, -⟩ := idx_resident t
  unfold iblk
  rw [View.read_apply]
  show V m c main_v23 _ = V m c main_v23 _
  refine congrArg (V m c main_v23) (funext fun a => Fin.ext ?_)
  match a with
  | ⟨0, _⟩ => show win0_5.index t (0 : Fin 2) * 1 + 1 * p.val = p.val; rw [e0]; omega
  | ⟨1, _⟩ => show win0_5.index t (1 : Fin 2) * 256 + 1 * q.val = q.val; rw [e1]; omega

/-- Window 6's block is its whole array at every point. -/
theorem iblk6_apply (c : Dev nD) (t : Fin cfg0.N) (p : Fin 1) (q : Fin 256) :
    (iblk m c 6 t : Vec Ideal S1x256 .f32) (ix2 p q) = (V m c main_v17 : S1x256.Idx → Ideal .f32) (ix2 p q) := by
  obtain ⟨-, -, -, -, -, ⟨e0, e1⟩, -⟩ := idx_resident t
  unfold iblk
  rw [View.read_apply]
  show V m c main_v17 _ = V m c main_v17 _
  refine congrArg (V m c main_v17) (funext fun a => Fin.ext ?_)
  match a with
  | ⟨0, _⟩ => show win0_6.index t (0 : Fin 2) * 1 + 1 * p.val = p.val; rw [e0]; omega
  | ⟨1, _⟩ => show win0_6.index t (1 : Fin 2) * 256 + 1 * q.val = q.val; rw [e1]; omega

/-- Window 7's block is its whole array at every point. -/
theorem iblk7_apply (c : Dev nD) (t : Fin cfg0.N) (p : Fin 1) (q : Fin 1) :
    (iblk m c 7 t : Vec Ideal S1x1 .f32) (ix2 p q) = (V m c main_v10 : S1x1.Idx → Ideal .f32) (ix2 p q) := by
  obtain ⟨-, -, -, -, -, -, ⟨e0, e1⟩⟩ := idx_resident t
  unfold iblk
  rw [View.read_apply]
  show V m c main_v10 _ = V m c main_v10 _
  refine congrArg (V m c main_v10) (funext fun a => Fin.ext ?_)
  match a with
  | ⟨0, _⟩ => show win0_7.index t (0 : Fin 2) * 1 + 1 * p.val = p.val; rw [e0]; omega
  | ⟨1, _⟩ => show win0_7.index t (1 : Fin 2) * 1 + 1 * q.val = q.val; rw [e1]; omega

end Cert.SoftSom.Blocks

end
-- ==== Proof.KernelInputs.lean ====
/-
  What the seven arrays the region reads hold when it is entered, each at one index, as terms of the specification.
  From the argument arrays the host operations before the region compute: the prototype table and the grid table
  transposed, and the prototype table as it is (each then narrowed to the shorter float format, which on extended
  reals is the identity); the squared norms of the prototype rows and of the grid rows, each as a row of shape
  [1, 256] (a sum over the feature axis from the zero word, then a broadcast that only adds a unit axis); the gates
  σ(gate_logit n) as a row of shape [1, 256]; and the temperature σ(raw) · c₁ + c₂ reshaped to [1, 1].

  Each array is first identified, as a whole, with the composition of the operations that write it; that composition is
  then read at the index: a transpose swaps the coordinates, a broadcast along a new unit axis forgets it, a reshape
  between one-element shapes reads the one element, and the pointwise operations read through.
-/
import proofs.«151267_j4114578669898_1_alg».proof.Proof.Gen.KernelIdeal.Frame
import proofs.«151267_j4114578669898_1_alg».proof.Proof.Spec
import Idealize.ShloMosaic.Lib.StableHlo.Run
import Idealize.ShloMosaic.Lib.Pipeline.Value
import Idealize.ShloMosaic.Lib.ValueLayout
import Idealize.ShloMosaic.PureOps.Ideal.Laws

noncomputable section

namespace Cert.SoftSom.Inputs

open Cert.KernelIdeal Cert.KernelIdeal.Gen Cert.SoftSom Idealize.ShloMosaic Idealize.ShloMosaic.TcCoe Idealize.SL.Sem
  Idealize.ShloMosaic.StableHlo Idealize.ShloMosaic.ValueIdx

variable (m : (ℓ : Loc nD τ sig) → Buf (Elt Ideal) ℓ)

/-! ## The operations' terms, over any table -/

/-- The logistic function applied entrywise, as the host operations spell it: 1 / (1 + exp (−t)). -/
abbrev sigmVec {s : Shape} (hb : S_.BroadcastsInDim s (![] : Fin 0 → Fin s.rank)) (A : FVec Ideal s .f32) : FVec Ideal s .f32 :=
  Host.divf (F := Ideal) (broadcastInDim s ![] hb (constant (F := Ideal) S_ .f32 0x3F800000#32))
    (addf (broadcastInDim s ![] hb (constant (F := Ideal) S_ .f32 0x3F800000#32)) (Host.exp (Host.negf A)))

/-- At an index it is the specification's σ of the entry. -/
theorem sigmVec_apply {s : Shape} (hb : S_.BroadcastsInDim s (![] : Fin 0 → Fin s.rank)) (A : FVec Ideal s .f32) (i : s.Idx) :
    sigmVec hb A i = sigm (A i) := rfl

/-- The temperature from its raw parameter, as the host operations spell it. -/
abbrev tempVec (A : FVec Ideal S1 .f32) : FVec Ideal S1 .f32 :=
  addf (mulf (sigmVec bcast_S_S1 A) (broadcastInDim S1 ![] bcast_S_S1 (constant (F := Ideal) S_ .f32 0x3F7FBE77#32)))
    (broadcastInDim S1 ![] bcast_S_S1 (constant (F := Ideal) S_ .f32 0x3A83126F#32))

/-- At its one index it is the specification's temperature. -/
theorem tempVec_apply (A : FVec Ideal S1 .f32) (i : S1.Idx) : tempVec A i = temp (A i) := rfl

/-- The squared norms of the rows of a [256, 1024] table, as the host sums them from the zero word. -/
abbrev rowSumSq (A : FVec Ideal S256x1024 .f32) : FVec Ideal S256 .f32 :=
  Host.reduceAdd (F := Ideal) (mulf A A) (constant (F := Ideal) S_ .f32 0x00000000#32) reducesTo_S256x1024_S256_d1 h_S_

/-- At row n it is the specification's squared norm of that row. -/
theorem rowSumSq_apply (A : FVec Ideal S256x1024 .f32) (n : Fin 256) :
    rowSumSq A (ix1 n) = ss (fun k => A (ix2 n k)) := by
  show Host.reduceAdd (F := Ideal) (mulf A A) (constant (F := Ideal) S_ .f32 0x00000000#32) reducesTo_S256x1024_S256_d1 h_S_ (ix1 n) = _
  generalize hy : mulf A A = y0
  simp only [Host.reduceAdd, Ideal.hostReduceAdd_def]
  rw [Ideal.hostReduceAdd_single reducesTo_S256x1024_S256_d1 (by decide)]
  subst hy
  calc _ = zero + ∑ k : Fin 1024, A (ix2 n k) * A (ix2 n k) :=
        congrArg (zero + ·) (Finset.sum_congr rfl fun k _ => congrArg (fun i => A i * A i)
          (funext fun a => Fin.ext (by match a with | ⟨0, _⟩ => rfl | ⟨1, _⟩ => rfl)))
    _ = _ := zero_add_eq _

/-! ## The seven arrays -/

/-- The prototype table transposed: entry (k, n) is the table's entry (n, k). -/
theorem v25_apply (c : Dev nD) (k : Fin 1024) (n : Fin 256) :
    (V m c main_v25 : S1024x256.Idx → Ideal .bf16) (ix2 k n)
      = (m ((c : Thread nD τ).loc main_arg1) : S256x1024.Idx → Ideal .f32) (ix2 n k) := by
  have e : (V m c main_v25 : S1024x256.Idx → Ideal .bf16)
      = truncf (F := Ideal) .bf16 (transpose S1024x256 [1, 0] (m ((c : Thread nD τ).loc main_arg1) : FVec Ideal S256x1024 .f32)
          transposes_S256x1024_S1024x256_1_0) bitsLt_bf16_f32 := by
    show StableHlo.after hostOps0 (fun b => m (c, b)) (Proc.devRef .tc main_v25) = _
    after_results <;> rfl
  refine (congrFun e _).trans ?_
  refine (truncf_apply (ψ := .bf16) _ bitsLt_bf16_f32 (ix2 k n)).trans ?_
  exact transpose_ix2_apply _ _ k n

/-- The grid table transposed: entry (k, n) is the table's entry (n, k). -/
theorem v27_apply (c : Dev nD) (k : Fin 1024) (n : Fin 256) :
    (V m c main_v27 : S1024x256.Idx → Ideal .bf16) (ix2 k n)
      = (m ((c : Thread nD τ).loc main_arg2) : S256x1024.Idx → Ideal .f32) (ix2 n k) := by
  have e : (V m c main_v27 : S1024x256.Idx → Ideal .bf16)
      = truncf (F := Ideal) .bf16 (transpose S1024x256 [1, 0] (m ((c : Thread nD τ).loc main_arg2) : FVec Ideal S256x1024 .f32)
          transposes_S256x1024_S1024x256_1_0) bitsLt_bf16_f32 := by
    show StableHlo.after hostOps0 (fun b => m (c, b)) (Proc.devRef .tc main_v27) = _
    after_results <;> rfl
  refine (congrFun e _).trans ?_
  refine (truncf_apply (ψ := .bf16) _ bitsLt_bf16_f32 (ix2 k n)).trans ?_
  exact transpose_ix2_apply _ _ k n

/-- The prototype table as it is. -/
theorem v28_apply (c : Dev nD) (n : Fin 256) (d : Fin 1024) :
    (V m c main_v28 : S256x1024.Idx → Ideal .bf16) (ix2 n d)
      = (m ((c : Thread nD τ).loc main_arg1) : S256x1024.Idx → Ideal .f32) (ix2 n d) := by
  have e : (V m c main_v28 : S256x1024.Idx → Ideal .bf16)
      = truncf (F := Ideal) .bf16 (m ((c : Thread nD τ).loc main_arg1) : FVec Ideal S256x1024 .f32) bitsLt_bf16_f32 := by
    show StableHlo.after hostOps0 (fun b => m (c, b)) (Proc.devRef .tc main_v28) = _
    after_results <;> rfl
  exact (congrFun e _).trans (truncf_apply _ _ _)

/-- The squared norms of the prototype rows, as a row. -/
theorem v20_apply (c : Dev nD) (n : Fin 256) :
    (V m c main_v20 : S1x256.Idx → Ideal .f32) (ix2 (0 : Fin 1) n)
      = ss (fun k => (m ((c : Thread nD τ).loc main_arg1) : S256x1024.Idx → Ideal .f32) (ix2 n k)) := by
  have e : (V m c main_v20 : S1x256.Idx → Ideal .f32)
      = broadcastInDim S1x256 ![1] bcast_S256_S1x256_1
          (rowSumSq (m ((c : Thread nD τ).loc main_arg1) : FVec Ideal S256x1024 .f32)) := by
    show StableHlo.after hostOps0 (fun b => m (c, b)) (Proc.devRef .tc main_v20) = _
    after_results <;> rfl
  refine (congrFun e _).trans ?_
  refine (broadcastInDim_apply _ bcast_S256_S1x256_1 _ (ix2 (0 : Fin 1) n) (ix1 n)
    (fun a => by match a with | ⟨0, _⟩ => rfl)).trans ?_
  exact rowSumSq_apply _ n

/-- The squared norms of the grid rows, as a row. -/
theorem v23_apply (c : Dev nD) (n : Fin 256) :
    (V m c main_v23 : S1x256.Idx → Ideal .f32) (ix2 (0 : Fin 1) n)
      = ss (fun k => (m ((c : Thread nD τ).loc main_arg2) : S256x1024.Idx → Ideal .f32) (ix2 n k)) := by
  have e : (V m c main_v23 : S1x256.Idx → Ideal .f32)
      = broadcastInDim S1x256 ![1] bcast_S256_S1x256_1
          (rowSumSq (m ((c : Thread nD τ).loc main_arg2) : FVec Ideal S256x1024 .f32)) := by
    show StableHlo.after hostOps0 (fun b => m (c, b)) (Proc.devRef .tc main_v23) = _
    after_results <;> rfl
  refine (congrFun e _).trans ?_
  refine (broadcastInDim_apply _ bcast_S256_S1x256_1 _ (ix2 (0 : Fin 1) n) (ix1 n)
    (fun a => by match a with | ⟨0, _⟩ => rfl)).trans ?_
  exact rowSumSq_apply _ n

/-- The gates, as a row. -/
theorem v17_apply (c : Dev nD) (n : Fin 256) :
    (V m c main_v17 : S1x256.Idx → Ideal .f32) (ix2 (0 : Fin 1) n)
      = sigm ((m ((c : Thread nD τ).loc main_arg4) : S256.Idx → Ideal .f32) (ix1 n)) := by
  have e : (V m c main_v17 : S1x256.Idx → Ideal .f32)
      = broadcastInDim S1x256 ![1] bcast_S256_S1x256_1
          (sigmVec bcast_S_S256 (m ((c : Thread nD τ).loc main_arg4) : FVec Ideal S256 .f32)) := by
    show StableHlo.after hostOps0 (fun b => m (c, b)) (Proc.devRef .tc main_v17) = _
    after_results <;> rfl
  refine (congrFun e _).trans ?_
  refine (broadcastInDim_apply _ bcast_S256_S1x256_1 _ (ix2 (0 : Fin 1) n) (ix1 n)
    (fun a => by match a with | ⟨0, _⟩ => rfl)).trans ?_
  exact sigmVec_apply _ _ _

/-- The temperature, as a one-entry array. -/
theorem v10_apply (c : Dev nD) :
    (V m c main_v10 : S1x1.Idx → Ideal .f32) (ix2 (0 : Fin 1) (0 : Fin 1))
      = temp ((m ((c : Thread nD τ).loc main_arg3) : S1.Idx → Ideal .f32) (ix1 (0 : Fin 1))) := by
  have e : (V m c main_v10 : S1x1.Idx → Ideal .f32)
      = shapeCast S1x1 (tempVec (m ((c : Thread nD τ).loc main_arg3) : FVec Ideal S1 .f32)) shapeCasts_S1_S1x1 := by
    show StableHlo.after hostOps0 (fun b => m (c, b)) (Proc.devRef .tc main_v10) = _
    after_results <;> rfl
  refine (congrFun e _).trans ?_
  refine (shapeCast_apply _ shapeCasts_S1_S1x1 (ix2 (0 : Fin 1) (0 : Fin 1)) (ix1 (0 : Fin 1)) ?_).trans ?_
  · rw [Shape.rowMajor_val_one, Shape.rowMajor_val_two]; rfl
  · exact tempVec_apply _ _

end Cert.SoftSom.Inputs

end
-- ==== Proof.KernelValue.lean ====
/-
  The kernel program's two results as functions of its argument arrays. At grid point `t` the body's input blocks are
  rows `512·t … 512·t + 511` of the input and the seven resident arrays the host operations before the region computed
  (the tables transposed, the table, the rows of squared norms, the gate row, the temperature), so what the point
  writes back is block `t` of the specification's arrays `Weights` and `Blended`; the 64 row blocks cover the two
  result arrays, so these end holding `Weights` and `Blended` of the arguments; and the two host operations after the
  region only insert a unit axis into each.
-/
import proofs.«151267_j4114578669898_1_alg».proof.Proof.Gen.KernelIdeal.Frame
import proofs.«151267_j4114578669898_1_alg».proof.Proof.KernelPoint
import proofs.«151267_j4114578669898_1_alg».proof.Proof.KernelBlocks
import proofs.«151267_j4114578669898_1_alg».proof.Proof.KernelInputs
import proofs.«151267_j4114578669898_1_alg».proof.Proof.Spec
import Idealize.ShloMosaic.Lib.Pipeline.Value
import Idealize.ShloMosaic.Lib.StableHlo.Run

noncomputable section

namespace Cert.SoftSom.Value

open Cert.KernelIdeal Cert.KernelIdeal.Gen Cert.SoftSom Cert.SoftSom.Point Cert.SoftSom.Blocks Cert.SoftSom.Inputs
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The argument arrays and the two specification arrays of them -/

abbrev A0 (c : Dev nD) : S32768x1024.Idx → EReal := m ((c : Thread nD τ).loc main_arg0)
abbrev A1 (c : Dev nD) : S256x1024.Idx → EReal := m ((c : Thread nD τ).loc main_arg1)
abbrev A2 (c : Dev nD) : S256x1024.Idx → EReal := m ((c : Thread nD τ).loc main_arg2)
abbrev A3 (c : Dev nD) : S1.Idx → EReal := m ((c : Thread nD τ).loc main_arg3)
abbrev A4 (c : Dev nD) : S256.Idx → EReal := m ((c : Thread nD τ).loc main_arg4)

/-- The weights of the arguments. -/
abbrev W (c : Dev nD) : S32768x256.Idx → EReal := Weights (A0 m c) (A1 m c) (A2 m c) (A3 m c) (A4 m c)
/-- The blend of the arguments. -/
abbrev B (c : Dev nD) : S32768x1024.Idx → EReal := Blended (A0 m c) (A1 m c) (A2 m c) (A3 m c) (A4 m c)

/-! ## What the input blocks hold at point `t` -/

theorem blk0 (c : Dev nD) (t : Fin cfg0.N) (r : Fin 512) (k : Fin 1024) :
    (iblk m c 0 t : FVec Ideal S512x1024 .f32) (ix2 r k) = A0 m c (ix2 (rowOf t r) k) := iblk0_apply m c t r k
theorem blk1 (c : Dev nD) (t : Fin cfg0.N) (k : Fin 1024) (n : Fin 256) :
    (iblk m c 1 t : FVec Ideal S1024x256 .bf16) (ix2 k n) = A1 m c (ix2 n k) := (iblk1_apply m c t k n).trans (v25_apply m c k n)
theorem blk2 (c : Dev nD) (t : Fin cfg0.N) (k : Fin 1024) (n : Fin 256) :
    (iblk m c 2 t : FVec Ideal S1024x256 .bf16) (ix2 k n) = A2 m c (ix2 n k) := (iblk2_apply m c t k n).trans (v27_apply m c k n)
theorem blk3 (c : Dev nD) (t : Fin cfg0.N) (n : Fin 256) (d : Fin 1024) :
    (iblk m c 3 t : FVec Ideal S256x1024 .bf16) (ix2 n d) = A1 m c (ix2 n d) := (iblk3_apply m c t n d).trans (v28_apply m c n d)
theorem blk4 (c : Dev nD) (t : Fin cfg0.N) (n : Fin 256) :
    (iblk m c 4 t : FVec Ideal S1x256 .f32) (ix2 (0 : Fin 1) n) = ss (fun k => A1 m c (ix2 n k)) := (iblk4_apply m c t 0 n).trans (v20_apply m c n)
theorem blk5 (c : Dev nD) (t : Fin cfg0.N) (n : Fin 256) :
    (iblk m c 5 t : FVec Ideal S1x256 .f32) (ix2 (0 : Fin 1) n) = ss (fun k => A2 m c (ix2 n k)) := (iblk5_apply m c t 0 n).trans (v23_apply m c n)
theorem blk6 (c : Dev nD) (t : Fin cfg0.N) (n : Fin 256) :
    (iblk m c 6 t : FVec Ideal S1x256 .f32) (ix2 (0 : Fin 1) n) = sigm (A4 m c (ix1 n)) := (iblk6_apply m c t 0 n).trans (v17_apply m c n)
theorem blk7 (c : Dev nD) (t : Fin cfg0.N) :
    (iblk m c 7 t : FVec Ideal S1x1 .f32) (ix2 (0 : Fin 1) (0 : Fin 1)) = temp (A3 m c (ix1 (0 : Fin 1))) := (iblk7_apply m c t 0 0).trans (v10_apply m c)

/-! ## Each point's write-back, the cover, the final arrays -/

/-- What point `t` writes back to result window 9 is block `t` of `W`. -/
theorem flushed9_eq (c : Dev nD) (t : Fin cfg0.N) :
    (dats m 0 c).flushed 9 t = ((cfg0.win 9).blk t).view.read (Elt Ideal) (W m c) := by
  obtain ⟨-, -, e80, e81, e90, e91⟩ := idx_moving t
  show (cfg0.win 9).cut (grid0.coords t) ((dats m 0 c).after 9 t) = _
  rw [after0_9]
  refine funext fun (j : S512x256.Idx) => ?_
  obtain ⟨r, q, rfl⟩ : ∃ (r : Fin 512) (q : Fin 256), j = ix2 r q := ⟨j 0, j 1, eq_ix2 j⟩
  show out0_9 (F := Ideal) (iblk m c 0 t) (iblk m c 1 t) (iblk m c 2 t) (iblk m c 3 t) (iblk m c 4 t) (iblk m c 5 t) (iblk m c 6 t)
    (iblk m c 7 t) (ix2 r q) = _
  refine (out9_apply (iblk m c 0 t) (iblk m c 1 t) (iblk m c 2 t) (iblk m c 3 t) (iblk m c 4 t) (iblk m c 5 t) (iblk m c 6 t)
    (iblk m c 7 t) (fun r k => A0 m c (ix2 (rowOf t r) k)) (fun n k => A1 m c (ix2 n k)) (fun n k => A2 m c (ix2 n k))
    (fun j => sigm (A4 m c (ix1 j))) (temp (A3 m c (ix1 (0 : Fin 1))))
    (blk0 m c t) (blk1 m c t) (blk2 m c t) (blk4 m c t) (blk5 m c t) (blk6 m c t) (blk7 m c t) r q).trans ?_
  rw [View.read_apply]
  show _ = W m c (((cfg0.win 9).blk t).view.emb (ix2 r q))
  have hemb : ((cfg0.win 9).blk t).view.emb (ix2 r q) = ix2 (rowOf t r) q := funext fun a => Fin.ext (by
    match a with
    | ⟨0, _⟩ => show win0_9.index t (0 : Fin 2) * 512 + 1 * r.val = 512 * t.val + r.val; rw [e90]; omega
    | ⟨1, _⟩ => show win0_9.index t (1 : Fin 2) * 256 + 1 * q.val = q.val; rw [e91]; omega)
  rw [hemb]
  rfl

/-- What point `t` writes back to result window 8 is block `t` of `B`. -/
theorem flushed8_eq (c : Dev nD) (t : Fin cfg0.N) :
    (dats m 0 c).flushed 8 t = ((cfg0.win 8).blk t).view.read (Elt Ideal) (B m c) := by
  obtain ⟨-, -, e80, e81, e90, e91⟩ := idx_moving t
  show (cfg0.win 8).cut (grid0.coords t) ((dats m 0 c).after 8 t) = _
  rw [after0_8]
  refine funext fun (j : S512x1024.Idx) => ?_
  obtain ⟨r, q, rfl⟩ : ∃ (r : Fin 512) (q : Fin 1024), j = ix2 r q := ⟨j 0, j 1, eq_ix2 j⟩
  show out0_8 (F := Ideal) (iblk m c 0 t) (iblk m c 1 t) (iblk m c 2 t) (iblk m c 3 t) (iblk m c 4 t) (iblk m c 5 t) (iblk m c 6 t)
    (iblk m c 7 t) (ix2 r q) = _
  refine (out8_apply (iblk m c 0 t) (iblk m c 1 t) (iblk m c 2 t) (iblk m c 3 t) (iblk m c 4 t) (iblk m c 5 t) (iblk m c 6 t)
    (iblk m c 7 t) (fun r k => A0 m c (ix2 (rowOf t r) k)) (fun n k => A1 m c (ix2 n k)) (fun n k => A2 m c (ix2 n k))
    (fun j => sigm (A4 m c (ix1 j))) (temp (A3 m c (ix1 (0 : Fin 1))))
    (blk0 m c t) (blk1 m c t) (blk2 m c t) (blk3 m c t) (blk4 m c t) (blk5 m c t) (blk6 m c t) (blk7 m c t) r q).trans ?_
  rw [View.read_apply]
  show _ = B m c (((cfg0.win 8).blk t).view.emb (ix2 r q))
  have hemb : ((cfg0.win 8).blk t).view.emb (ix2 r q) = ix2 (rowOf t r) q := funext fun a => Fin.ext (by
    match a with
    | ⟨0, _⟩ => show win0_8.index t (0 : Fin 2) * 512 + 1 * r.val = 512 * t.val + r.val; rw [e80]; omega
    | ⟨1, _⟩ => show win0_8.index t (1 : Fin 2) * 1024 + 1 * q.val = q.val; rw [e81]; omega)
  rw [hemb]
  rfl

/-- An index of result array 9 is in point `t`'s block iff each coordinate is in the block's range on its axis. -/
theorem mem_blk9 (t : Fin cfg0.N) (i : S32768x256.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v29_1).slice (win0_9.rect t)).set ↔ _
  rw [View.set_slice_whole, Rect.mem_set_unit]
  exact Iff.rfl

/-- The 64 row blocks cover result array 9: row `b` is in the block of point `b / 512`. -/
theorem cover9 (i : S32768x256.Idx) : ∃ t : Fin cfg0.N, (cfg0.win 9).flush t = true ∧ i ∈ ((cfg0.win 9).blk t).view.set := by
  have hi0 : (i 0).val < 32768 := (i 0).isLt
  have hi1 : (i 1).val < 256 := (i 1).isLt
  have hN : cfg0.N = 64 := N_0
  let t : Fin cfg0.N := ⟨(i 0).val / 512, by rw [hN]; omega⟩
  obtain ⟨-, -, e80, e81, e90, e91⟩ := idx_moving t
  have ht : t.val = (i 0).val / 512 := rfl
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; rw [e90, ht]; omega
  | ⟨1, _⟩ => show win0_9.index t (1 : Fin 2) * 256 ≤ (i 1).val ∧ (i 1).val < win0_9.index t (1 : Fin 2) * 256 + 256; rw [e91]; omega

/-- Result array 9 after the run. -/
theorem final9 (c : Dev nD) : (dats m 0 c).arrAt 9 cfg0.N = W m c :=
  (dats m 0 c).arrAt_eq_of_cover 9 (W m c) (fun t _ => flushed9_eq m c t) cover9

/-- An index of result array 8 is in point `t`'s block iff each coordinate is in the block's range on its axis. -/
theorem mem_blk8 (t : Fin cfg0.N) (i : S32768x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v29_0).slice (win0_8.rect t)).set ↔ _
  rw [View.set_slice_whole, Rect.mem_set_unit]
  exact Iff.rfl

/-- The 64 row blocks cover result array 8: row `b` is in the block of point `b / 512`. -/
theorem cover8 (i : S32768x1024.Idx) : ∃ t : Fin cfg0.N, (cfg0.win 8).flush t = true ∧ i ∈ ((cfg0.win 8).blk t).view.set := by
  have hi0 : (i 0).val < 32768 := (i 0).isLt
  have hi1 : (i 1).val < 1024 := (i 1).isLt
  have hN : cfg0.N = 64 := N_0
  let t : Fin cfg0.N := ⟨(i 0).val / 512, by rw [hN]; omega⟩
  obtain ⟨-, -, e80, e81, e90, e91⟩ := idx_moving t
  have ht : t.val = (i 0).val / 512 := rfl
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; rw [e80, ht]; omega
  | ⟨1, _⟩ => show win0_8.index t (1 : Fin 2) * 1024 ≤ (i 1).val ∧ (i 1).val < win0_8.index t (1 : Fin 2) * 1024 + 1024; rw [e81]; omega

/-- Result array 8 after the run. -/
theorem final8 (c : Dev nD) : (dats m 0 c).arrAt 8 cfg0.N = B m c :=
  (dats m 0 c).arrAt_eq_of_cover 8 (B m c) (fun t _ => flushed8_eq m c t) cover8

/-! ## The two host operations after the region, and the run -/

/-- The first result: the blend with a unit axis inserted. -/
theorem tail30 (c : Dev nD) : Pipeline.afterTail₀ cfgs (dats m) 0 (V0 m) [hostOps1] c main_v30
    = broadcastInDim S32768x1x1024 ![0, 2] bcast_S32768x1024_S32768x1x1024_0_2 (B m c) := by
  unfold Pipeline.afterTail₀
  show StableHlo.after hostOps1 _ (Proc.devRef .tc main_v30) = _
  after_results
  exact congrArg (broadcastInDim S32768x1x1024 ![0, 2] bcast_S32768x1024_S32768x1x1024_0_2)
    ((Pipeline.withArrays_arr spec0 launch0.win.arr_inj c (V0 m c) (fun w => (dats m 0 c).arrAt w (cfgs 0).N) 8).trans (final8 m c))

/-- The second result: the weights with a unit axis inserted. -/
theorem tail31 (c : Dev nD) : Pipeline.afterTail₀ cfgs (dats m) 0 (V0 m) [hostOps1] c main_v31
    = broadcastInDim S32768x1x256 ![0, 2] bcast_S32768x256_S32768x1x256_0_2 (W m c) := by
  unfold Pipeline.afterTail₀
  show StableHlo.after hostOps1 _ (Proc.devRef .tc main_v31) = _
  after_results
  exact congrArg (broadcastInDim S32768x1x256 ![0, 2] bcast_S32768x256_S32768x1x256_0_2)
    ((Pipeline.withArrays_arr spec0 launch0.win.arr_inj c (V0 m c) (fun w => (dats m 0 c).arrAt w (cfgs 0).N) 9).trans (final9 m c))

/-- Every weakly fair execution of the kernel program terminates with the two results at the specification's arrays
    of the arguments (a unit axis inserted) and the arguments unchanged. -/
theorem run : θ_run defs (onTc (τ := τ) (main (F := Ideal))) ⟨m, fun _ => 0, ρ⟩ fun r => ∀ c : Dev nD,
      r.2.mem ((c.tc : Thread nD τ).loc main_v30) = broadcastInDim S32768x1x1024 ![0, 2] bcast_S32768x1024_S32768x1x1024_0_2 (B m c)
      ∧ r.2.mem ((c.tc : Thread nD τ).loc main_v31) = broadcastInDim S32768x1x256 ![0, 2] bcast_S32768x256_S32768x1x256_0_2 (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v30 (Pipeline.mem_restRefs_of main_v30 (by decide) (by decide))).trans (tail30 m c),
      ((h c).2 main_v31 (Pipeline.mem_restRefs_of main_v31 (by decide) (by decide))).trans (tail31 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.SoftSom.Value

end
-- ==== Proof.lean ====
/-
  The certificate of the soft self-organising-map layer: the tiled kernel program against its plain reference.

  Both programs compute, for every input row `x` (32768 rows of 1024 entries) and the 256 prototype rows `P n` and grid
  rows `G n`: the two distances `sqrt (max (‖x‖² + ‖y‖² − 2⟨x, y⟩) 0)`, the logits `−(d(x, P n) + d(x, G n)) / T` with the
  temperature `T = σ(t) · c₁ + c₂`, their soft maximum along the row, the gates `σ(g n)` applied and the row renormalised
  with `+ ε` in the denominator (the weights), and the weights applied to the prototype table (the blend). The kernel
  does this 512 rows at a time with the tables resident, feeds its matrix units values narrowed to a shorter float
  format (the identity on the extended reals), and spells one negation as `0 − x`; the reference takes one more
  maximum with −∞ after its row maximum. On the extended reals these are the same functions of the arguments
  (`Cert.SoftSom.Weights`, `Cert.SoftSom.Blended`): no law used needs the inputs finite, so the precondition is never
  opened. The ideal pass rewrote nothing, so `preserves` is trivial.

  The three frames are the generated ones (the reference's from its generated run); the kernel program's run with its
  two results named is `Cert.SoftSom.Value.run`, the reference's results are read by `Cert.SoftSom.Ref.weights_eq` and
  `blended_eq`; both programs end by inserting the same unit axis, which is never opened.
-/
import proofs.«151267_j4114578669898_1_alg».proof.Defs
import proofs.«151267_j4114578669898_1_alg».proof.Proof.Gen.Kernel
import proofs.«151267_j4114578669898_1_alg».proof.Proof.Gen.Kernel.Skeleton
import proofs.«151267_j4114578669898_1_alg».proof.Proof.Gen.Kernel.Launch
import proofs.«151267_j4114578669898_1_alg».proof.Proof.Gen.Kernel.Points
import proofs.«151267_j4114578669898_1_alg».proof.Proof.Gen.Kernel.Frame
import proofs.«151267_j4114578669898_1_alg».proof.Proof.Gen.KernelIdeal
import proofs.«151267_j4114578669898_1_alg».proof.Proof.Gen.KernelIdeal.Skeleton
import proofs.«151267_j4114578669898_1_alg».proof.Proof.Gen.KernelIdeal.Launch
import proofs.«151267_j4114578669898_1_alg».proof.Proof.Gen.KernelIdeal.Points
import proofs.«151267_j4114578669898_1_alg».proof.Proof.Gen.KernelIdeal.Frame
import proofs.«151267_j4114578669898_1_alg».proof.Proof.Gen.ReferenceIdeal
import proofs.«151267_j4114578669898_1_alg».proof.Proof.Gen.Pre_finite_inputs
import proofs.«151267_j4114578669898_1_alg».proof.Proof.Gen.ReferenceIdeal.Run
import proofs.«151267_j4114578669898_1_alg».proof.Proof.Gen.ReferenceIdeal.Read
import proofs.«151267_j4114578669898_1_alg».proof.Proof.Spec
import proofs.«151267_j4114578669898_1_alg».proof.Proof.RefSide
import proofs.«151267_j4114578669898_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- At the extended reals both programs end with the blend and the weights of the (agreeing) arguments, a unit axis
    inserted: the kernel program by its run, the reference by its run read one operation at a time. -/
theorem algebraic : Cert.algebraic_KernelIdeal_ReferenceIdeal := by
  intro m ρ m' ρ' _ hagree
  refine ⟨_, _, Cert.SoftSom.Value.run m ρ, ?_⟩
  refine (θ_run Cert.ReferenceIdeal.defs _ _).mono (fun _ h c => ?_) (Cert.ReferenceIdeal.Value.run (F := Ideal) m' ρ')
  obtain ⟨h76, h77, hrest⟩ := h c
  obtain ⟨a0, a1, a2, a3, a4⟩ := hagree c
  refine ⟨h76.trans ?_, h77.trans ?_, hrest⟩
  · rw [Cert.ReferenceIdeal.Read.val_main_v76_eq]
    unfold Cert.ReferenceIdeal.Read.val_main_v76
    rw [Cert.SoftSom.Ref.blended_eq, a0, a1, a2, a3, a4]
  · rw [Cert.ReferenceIdeal.Read.val_main_v77_eq]
    unfold Cert.ReferenceIdeal.Read.val_main_v77
    rw [Cert.SoftSom.Ref.weights_eq, a0, a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
